-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x512 : Shape := ⟨2, ![4096, 512]⟩
abbrev S4096 : Shape := ⟨1, ![4096]⟩
abbrev S_ : Shape := ⟨0, ![]⟩

class Facts : Prop where
  bcast_S_S4096x512 : S_.BroadcastsInDim S4096x512 (![] : Fin 0 → Fin S4096x512.rank)
  reducesTo_S4096x512_S_d0_1 : S4096x512.ReducesTo [0, 1] S_
  h_S_ : 0 < S_.numel

variable [Facts]

def fn {F : FTy → Type} [FloatOps F] (main_arg0 : FVec F S4096x512 .f32) (main_arg1 : IVec S4096 32) : IVec S_ 1 :=
  let main_v0 : FVec F S4096x512 .f32 := Host.absf main_arg0
  let main_cst : FVec F S_ .f32 := constant S_ .f32 0x7F800000#32
  let main_v1 : FVec F S4096x512 .f32 := broadcastInDim S4096x512 ![] bcast_S_S4096x512 main_cst
  let main_v2 : IVec S4096x512 1 := cmpf .olt main_v0 main_v1
  let main_c : IVec S_ 1 := constantI S_ 1 1#1
  let main_v3 : IVec S_ 1 := (fun x v => Host.reduce IntOp.andi x v reducesTo_S4096x512_S_d0_1 h_S_) main_v2 main_c
  main_v3
-- ==== Kernel.lean ====
abbrev S4096x512 : Shape := ⟨2, ![4096, 512]⟩
abbrev S4096 : Shape := ⟨1, ![4096]⟩
abbrev S4096x1 : Shape := ⟨2, ![4096, 1]⟩
abbrev S1x4096 : Shape := ⟨2, ![1, 4096]⟩
abbrev S256x512 : Shape := ⟨2, ![256, 512]⟩
abbrev S256x1 : Shape := ⟨2, ![256, 1]⟩
abbrev S512x4096 : Shape := ⟨2, ![512, 4096]⟩
abbrev S256x4096 : Shape := ⟨2, ![256, 4096]⟩
abbrev S256 : Shape := ⟨1, ![256]⟩
abbrev S_ : Shape := ⟨0, ![]⟩

abbrev nBuf : Space → Nat
  | .hbm => 20
  | .vmem => 10
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S4096x1, .i32⟩
  | .hbm, ⟨3, _⟩ => ⟨S1x4096, .i32⟩
  | .hbm, ⟨4, _⟩ => ⟨S4096x1, .f32⟩
  | .hbm, ⟨5, _⟩ => ⟨S4096x1, .f32⟩
  | .hbm, ⟨6, _⟩ => ⟨S4096, .f32⟩
  | .hbm, ⟨7, _⟩ => ⟨S4096, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .i1⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S256x512, .f32⟩
  | .local _ .vmem, ⟨1, _⟩ => ⟨S256x512, .f32⟩
  | .local _ .vmem, ⟨2, _⟩ => ⟨S4096x512, .f32⟩
  | .local _ .vmem, ⟨3, _⟩ => ⟨S256x1, .i32⟩
  | .local _ .vmem, ⟨4, _⟩ => ⟨S256x1, .i32⟩
  | .local _ .vmem, ⟨5, _⟩ => ⟨S1x4096, .i32⟩
  | .local _ .vmem, ⟨6, _⟩ => ⟨S256x1, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_cst_3 : Ref sig .tc := ⟨.hbm, 17, rfl⟩
abbrev main_call0_v0 : Ref sig .tc := ⟨.hbm, 18, rfl⟩
abbrev main_v10 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S4096_S4096x1 : S4096.ShapeCasts S4096x1
  shapeCasts_S4096_S1x4096 : S4096.ShapeCasts S1x4096
  inb_S256x512_S256x512_0_0 : ∀ a, (![0, 0] : Fin 2 → Nat) a + S256x512.size a ≤ S256x512.size a
  h_S256x512 : 0 < S256x512.numel
  inb_S4096x512_S4096x512_0_0 : ∀ a, (![0, 0] : Fin 2 → Nat) a + S4096x512.size a ≤ S4096x512.size a
  h_S4096x512 : 0 < S4096x512.numel
  transposes_S4096x512_p1_0_S512x4096 : S4096x512.Transposes [1, 0] S512x4096
  iota_S256x4096_d0_w32 : S256x4096.Iotas .tc 32 [0]
  iota_S256x4096_d1_w32 : S256x4096.Iotas .tc 32 [1]
  reduces_S256x4096_S256 : S256x4096.Reduces [1] S256
  shapeCasts_S256_S256x1 : S256.ShapeCasts S256x1
  broadcasts_S256x1_S256x4096 : S256x1.Broadcasts S256x4096
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  natLt_1_32 : 1 < 32
  shapeCasts_S4096x1_S4096 : S4096x1.ShapeCasts S4096
  reducesTo_S4096_S_d0 : S4096.ReducesTo [0] S_
  h_S_ : 0 < S_.numel
  dot_S256x512_S512x4096_S256x4096_1_0_0_1_n_n_wf : DotDims.WF S256x512 S512x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x512.size a ≤ S4096x512.size a
  hwx0_0 : ∀ i : grid0.Coords, EltTy.bits .f32 = 32 ∨ (Rect.block (s := S4096x512) S256x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x512.size a ≤ S4096x512.size a
  hwx0_1 : ∀ i : grid0.Coords, EltTy.bits .f32 = 32 ∨ (Rect.block (s := S4096x512) S4096x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1.size a ≤ S4096x1.size a
  hwx0_2 : ∀ i : grid0.Coords, EltTy.bits .i32 = 32 ∨ (Rect.block (s := S4096x1) S256x1.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x4096.size a ≤ S1x4096.size a
  hwx0_3 : ∀ i : grid0.Coords, EltTy.bits .i32 = 32 ∨ (Rect.block (s := S1x4096) S1x4096.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S256x1.size a ≤ S4096x1.size a
  hwx0_4 : ∀ i : grid0.Coords, EltTy.bits .f32 = 32 ∨ (Rect.block (s := S4096x1) S256x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4096x1.size a
  hwx0_5 : ∀ i : grid0.Coords, EltTy.bits .f32 = 32 ∨ (Rect.block (s := S4096x1) S256x1.size (cc0_transform_5 i) (hinb0_5 i)).WholeWords (EltTy.packing .f32)

variable [Facts₀]

def dot_S256x512_S512x4096_S256x4096_1_0_0_1_n_n : DotDims S256x512 S512x4096 S256x4096 where
  lhsContracting := [1]
  rhsContracting := [0]
  lhsNonContracting := [0]
  rhsNonContracting := [1]
  lhsBatch := []
  rhsBatch := []
  wf := dot_S256x512_S512x4096_S256x4096_1_0_0_1_n_n_wf

abbrev win0_0 : Pipeline.Window sig grid0 :=
  Pipeline.Window.ofSpec (Memref.whole main_arg0) S256x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S4096x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2_0) S256x1.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2_1) S256x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x512 : Shape := ⟨2, ![4096, 512]⟩
abbrev S4096 : Shape := ⟨1, ![4096]⟩
abbrev S512x4096 : Shape := ⟨2, ![512, 4096]⟩
abbrev S4096x4096 : Shape := ⟨2, ![4096, 4096]⟩
abbrev S_ : Shape := ⟨0, ![]⟩
abbrev S1x4096 : Shape := ⟨2, ![1, 4096]⟩
abbrev S4096x1 : Shape := ⟨2, ![4096, 1]⟩

abbrev nBuf : Space → Nat
  | .hbm => 64
  | .vmem => 0
  | .smem => 0
  | _ => 0

abbrev bufTy : (tb : Table) → Fin (tcTables nBuf tb) → BufTy
  | .hbm, ⟨0, _⟩ => ⟨S4096x512, .f32⟩
  | .hbm, ⟨1, _⟩ => ⟨S4096, .i32⟩
  | .hbm, ⟨2, _⟩ => ⟨S512x4096, .f32⟩
  | .hbm, ⟨3, _⟩ => ⟨S4096x4096, .f32⟩
  | .hbm, ⟨4, _⟩ => ⟨S_, .f32⟩
  | .hbm, ⟨5, _⟩ => ⟨S4096x4096, .f32⟩
  | .hbm, ⟨6, _⟩ => ⟨S4096x4096, .f32⟩
  | .hbm, ⟨7, _⟩ => ⟨S4096x4096, .i32⟩
  | .hbm, ⟨8, _⟩ => ⟨S4096x4096, .i32⟩
  | .hbm, ⟨9, _⟩ => ⟨S_, .i32⟩
  | .hbm, ⟨10, _⟩ => ⟨S4096x4096, .i32⟩
  | .hbm, ⟨11, _⟩ => ⟨S4096x4096, .i32⟩
  | .hbm, ⟨12, _⟩ => ⟨S4096x4096, .i1⟩
  | .hbm, ⟨13, _⟩ => ⟨S1x4096, .i32⟩
  | .hbm, ⟨14, _⟩ => ⟨S4096x1, .i32⟩
  | .hbm, ⟨15, _⟩ => ⟨S4096x4096, .i32⟩
  | .hbm, ⟨16, _⟩ => ⟨S4096x4096, .i32⟩
  | .hbm, ⟨17, _⟩ => ⟨S4096x4096, .i1⟩
  | .hbm, ⟨18, _⟩ => ⟨S4096x4096, .i1⟩
  | .hbm, ⟨19, _⟩ => ⟨S4096x4096, .i1⟩
  | .hbm, ⟨20, _⟩ => ⟨S_, .f32⟩
  | .hbm, ⟨21, _⟩ => ⟨S4096, .f32⟩
  | .hbm, ⟨22, _⟩ => ⟨S4096x1, .f32⟩
  | .hbm, ⟨23, _⟩ => ⟨S4096x4096, .f32⟩
  | .hbm, ⟨24, _⟩ => ⟨S4096x4096, .f32⟩
  | .hbm, ⟨25, _⟩ => ⟨S_, .f32⟩
  | .hbm, ⟨26, _⟩ => ⟨S_, .f32⟩
  | .hbm, ⟨27, _⟩ => ⟨S4096x4096, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S_, .f32⟩
  | .hbm, ⟨32, _⟩ => ⟨S4096x4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S_, .f32⟩
  | .hbm, ⟨37, _⟩ => ⟨S4096, .f32⟩
  | .hbm, ⟨38, _⟩ => ⟨S_, .i1⟩
  | .hbm, ⟨39, _⟩ => ⟨S4096, .i1⟩
  | .hbm, ⟨40, _⟩ => ⟨S_, .f32⟩
  | .hbm, ⟨41, _⟩ => ⟨S_, .f32⟩
  | .hbm, ⟨42, _⟩ => ⟨S4096, .f32⟩
  | .hbm, ⟨43, _⟩ => ⟨S4096, .f32⟩
  | .hbm, ⟨44, _⟩ => ⟨S4096, .f32⟩
  | .hbm, ⟨45, _⟩ => ⟨S4096, .f32⟩
  | .hbm, ⟨46, _⟩ => ⟨S4096, .f32⟩
  | .hbm, ⟨47, _⟩ => ⟨S4096, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S4096, .f32⟩
  | .hbm, ⟨53, _⟩ => ⟨S4096, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | .hbm, ⟨63, _⟩ => ⟨S_, .f32⟩
  | _, _ => ⟨S4096x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_call1_v0 : Ref sig .tc := ⟨.hbm, 31, rfl⟩
abbrev main_call1_v1 : Ref sig .tc := ⟨.hbm, 32, rfl⟩
abbrev main_v22 : Ref sig .tc := ⟨.hbm, 33, rfl⟩
abbrev main_cst_3 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_cst_6 : Ref sig .tc := ⟨.hbm, 40, rfl⟩
abbrev main_call2_v0 : Ref sig .tc := ⟨.hbm, 41, rfl⟩
abbrev main_call2_v1 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_cst_8 : Ref sig .tc := ⟨.hbm, 50, rfl⟩
abbrev main_call3_v0 : Ref sig .tc := ⟨.hbm, 51, rfl⟩
abbrev main_call3_v1 : Ref sig .tc := ⟨.hbm, 52, rfl⟩
abbrev main_v32 : Ref sig .tc := ⟨.hbm, 53, rfl⟩
abbrev main_cst_9 : Ref sig .tc := ⟨.hbm, 54, rfl⟩
abbrev main_v33 : Ref sig .tc := ⟨.hbm, 55, rfl⟩
abbrev main_cst_10 : Ref sig .tc := ⟨.hbm, 56, rfl⟩
abbrev main_v34 : Ref sig .tc := ⟨.hbm, 57, rfl⟩
abbrev main_v35 : Ref sig .tc := ⟨.hbm, 58, rfl⟩
abbrev main_cst_11 : Ref sig .tc := ⟨.hbm, 59, rfl⟩
abbrev main_v36 : Ref sig .tc := ⟨.hbm, 60, rfl⟩
abbrev main_cst_12 : Ref sig .tc := ⟨.hbm, 61, rfl⟩
abbrev main_call4_v0 : Ref sig .tc := ⟨.hbm, 62, rfl⟩
abbrev main_v37 : Ref sig .tc := ⟨.hbm, 63, rfl⟩

abbrev nD : Nat := 1
abbrev τ : Topo := Topo.v7x

variable {F : FTy → Type} [FloatOps F]

class Facts₀ : Prop where
  transposes_S4096x512_S512x4096_1_0 : S4096x512.Transposes [1, 0] S512x4096
  bcast_S_S4096x4096 : S_.BroadcastsInDim S4096x4096 (![] : Fin 0 → Fin S4096x4096.rank)
  bcast_S4096_S1x4096_1 : S4096.BroadcastsInDim S1x4096 (![1] : Fin 1 → Fin S1x4096.rank)
  bcast_S4096_S4096x1_0 : S4096.BroadcastsInDim S4096x1 (![0] : Fin 1 → Fin S4096x1.rank)
  bcast_S1x4096_S4096x4096_0_1 : S1x4096.BroadcastsInDim S4096x4096 (![0, 1] : Fin 2 → Fin S4096x4096.rank)
  bcast_S4096x1_S4096x4096_0_1 : S4096x1.BroadcastsInDim S4096x4096 (![0, 1] : Fin 2 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  reducesTo_S4096_S_d0 : S4096.ReducesTo [0] S_
  dot_S4096x512_S512x4096_S4096x4096_1_0_0_1_n_n_wf : DotDims.WF S4096x512 S512x4096 S4096x4096 [1] [0] [0] [1] [] []

variable [Facts₀]

def dot_S4096x512_S512x4096_S4096x4096_1_0_0_1_n_n : DotDims S4096x512 S512x4096 S4096x4096 where
  lhsContracting := [1]
  rhsContracting := [0]
  lhsNonContracting := [0]
  rhsNonContracting := [1]
  lhsBatch := []
  rhsBatch := []
  wf := dot_S4096x512_S512x4096_S4096x4096_1_0_0_1_n_n_wf

class Facts : Prop extends Facts₀ where

variable [Facts]
-- ==== Proof.KBody.lean ====
/-
  The body of the contrastive kernel, run once at a grid point, and the pipeline's proof data.

  At grid point `t` the kernel is handed six staging buffers: the block of 256 embedding rows `256·t … 256·t + 255`
  (window 0), the whole embedding array again as the keys (window 1: the same array as window 0), the block's 256
  labels as a column (window 2), all 4096 labels as a row (window 3), and the two output columns of 256 entries
  (windows 4 and 5). It loads the four inputs whole, computes, and stores each output column whole: the per-row
  contribution (window 4) and the per-row count (window 5). So after the body each input buffer holds what it
  held — its block of the array — and each output buffer holds one pure function of the four input blocks and of
  the grid point (the diagonal of the similarity matrix sits at column `256·t + p` of row `p`): `out0_4`, `out0_5`.
-/
import proofs.«177116_j84293028151332_1_alg».proof.Proof.Gen.Kernel.Launch
import proofs.«177116_j84293028151332_1_alg».proof.Proof.Gen.Kernel.Skeleton
import proofs.«177116_j84293028151332_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the two reshapes of the labels have run. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the whole-array
    windows 1 and 3 are fetched at the first point only, and their block never moves), for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev r0_0 : Rect S256x512 := Rect.unit (s := S256x512) ![0, 0] S256x512.size inb_S256x512_S256x512_0_0
abbrev r0_1 : Rect S4096x512 := Rect.unit (s := S4096x512) ![0, 0] S4096x512.size inb_S4096x512_S4096x512_0_0
abbrev r0_2 : Rect S256x1 := Rect.unit (s := S256x1) ![0, 0] S256x1.size inb_S256x1_S256x1_0_0
abbrev r0_3 : Rect S1x4096 := Rect.unit (s := S1x4096) ![0, 0] S1x4096.size inb_S1x4096_S1x4096_0_0

/-! ## What the body leaves in each output column -/

/-- The contributions' column after the body at grid coordinates `i`, from the four input blocks: its one whole
    store, of the per-row contribution computed from the positives' sums, the whole sums and the has-a-positive bits. -/
def out0_4 (i : grid0.Coords) (x0 : Vec F S256x512 .f32) (x1 : Vec F S4096x512 .f32) (x2 : Vec F S256x1 .i32) (x3 : Vec F S1x4096 .i32) : Vec F S256x1 .f32 :=
  View.canon [⟨r0_2, k0_pay1 (k0_pay6 i (View.ld x0 r0_0) (View.ld x1 r0_1) (View.ld x2 r0_2) (View.ld x3 r0_3)) (k0_pay7 i (View.ld x0 r0_0) (View.ld x1 r0_1)) (k0_pay8 i (View.ld x2 r0_2) (View.ld x3 r0_3))⟩]

/-- The counts' column after the body: its one whole store, of the has-a-positive bits as numbers. -/
def out0_5 (i : grid0.Coords) (x2 : Vec F S256x1 .i32) (x3 : Vec F S1x4096 .i32) : Vec F S256x1 .f32 :=
  View.canon [⟨r0_2, k0_pay2 (F := F) (k0_pay8 i (View.ld x2 r0_2) (View.ld x3 r0_3))⟩]

/-- A whole store covers the column. -/
theorem cover0_45 (p0 : Vec F S256x1 .f32) (y : S256x1.Idx) :
    ∃ pc ∈ ([⟨r0_2, p0⟩] : List (View.Piece (Elt F) S256x1 .f32)), y ∈ pc.1.set :=
  View.cover_of_tiled [⟨r0_2, p0⟩] S256x1.size (by rfl) y

/-! ## The body's triple -/

set_option maxHeartbeats 4000000 in
/-- The kernel body on whole staging buffers, the four inputs' at read contents and the two outputs' at anything,
    runs to the continuation holding the inputs' as they were and each output's at its column. -/
theorem sound_kernel (c : Dev nD) (E : Set ℕ) (i : grid0.Coords)
    (arg1 : Memref sig .tc .vmem S256x512 .f32) (harg1 : arg1.IsWhole) (arg2 : Memref sig .tc .vmem S4096x512 .f32) (harg2 : arg2.IsWhole)
    (arg3 : Memref sig .tc .vmem S256x1 .i32) (harg3 : arg3.IsWhole) (arg4 : Memref sig .tc .vmem S1x4096 .i32) (harg4 : arg4.IsWhole)
    (arg5 : Memref sig .tc .vmem S256x1 .f32) (harg5 : arg5.IsWhole) (arg6 : Memref sig .tc .vmem S256x1 .f32) (harg6 : arg6.IsWhole)
    (x0 : Vec F S256x512 .f32) (x1 : Vec F S4096x512 .f32) (x2 : Vec F S256x1 .i32) (x3 : Vec F S1x4096 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 i x0 x1 x2 x3)
            ∗ owns (c : Thread nD τ) arg6 fullShare (out0_5 i x2 x3)) -∗ K ⟨⟩))
      ⊢ wp frame (wpE (defs₀ (F := F)) Variants.none c none) E (cc0__contrastive_kernel i arg1 harg1 arg2 harg2 arg3 harg3 arg4 harg4 arg5 harg5 arg6 harg6) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover0_45 _)
  iexists _; isplitr
  swap; · iexact H5
  ipureintro
  try dsimp only
  exact View.read_writes_eq_canon _ _ _ (cover0_45 _)

/-! ## The pipeline's proof data -/

/-- The proof data of the one pipeline on core `c`: the arrays as the region finds them; after the body at point
    `t` each input's buffer at its block and each output's at its column of the input blocks; the invariant the
    scoped buffers no window stages and the generator register, untouched; nothing owed. The embeddings' array is
    read through TWO windows (the block of rows and the whole array): each holds one half of it; every other array
    is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (grid0.coords t) (iblk m c 0 t) (iblk m c 1 t) (iblk m c 2 t) (iblk m c 3 t)
    | ⟨5, _⟩ => out0_5 (grid0.coords t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (grid0.coords t) (iblk m c 0 t) (iblk m c 1 t) (iblk m c 2 t) (iblk m c 3 t) := by dsimp only [dats]
theorem after0_5 (c : Dev nD) (t : Fin cfg0.N) :
    (dats m 0 c).after 5 t = out0_5 (grid0.coords t) (iblk m c 2 t) (iblk m c 3 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.KRun.lean ====
/-
  The launch of the contrastive kernel's program: @main as host operations, the kernel region, host operations.

  @main reshapes the labels twice (a column and a row), launches the kernel on the embeddings twice over (the block
  of rows and the whole array: TWO windows on ONE array), the two reshaped labels and two result columns, and then
  reshapes the result columns, sums each, and divides the contributions' sum by the count (at least one), with `0`
  for a count that is not positive. Its run is the library's for a list of segments: the host operations before the
  region, the region, the host operations after it. At the region's entry the embeddings' array, held whole, is split in
  two halves, one per window; at the exit the halves are joined again. Every buffer the host operations name is
  tracked at its value, so the run's post names the result buffer's final contents: the operations after the region
  applied to what the region left in the two result columns.
-/
import proofs.«177116_j84293028151332_1_alg».proof.Proof.KBody
import Idealize.ShloMosaic.Lib.Pipeline.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' arrays: one array behind two windows -/

/-- The pipeline's arrays at contents `Fn`, window by window: the embeddings' array once at each half share (the block
    window and the whole-array window), the two reshaped label arrays and the two result columns whole. -/
theorem arrays_chain (c : Dev nD) (Fn : (w : Fin cfg0.W) → Buf (Elt F) ((cfg0.win w).arr.view.loc (c : Thread nD τ))) :
    ((dats m 0 c).arrays Fn : sProp 𝕄)
      = iprop((((c : Thread nD τ).loc main_arg0) ↦{fullShare.left} Fn 0) ∗ (((c : Thread nD τ).loc main_arg0) ↦{fullShare.right} Fn 1)
          ∗ (((c : Thread nD τ).loc main_v0) ↦{fullShare} Fn 2) ∗ (((c : Thread nD τ).loc main_v1) ↦{fullShare} Fn 3)
          ∗ (((c : Thread nD τ).loc main_v2_0) ↦{fullShare} Fn 4) ∗ (((c : Thread nD τ).loc main_v2_1) ↦{fullShare} Fn 5)) := by
  unfold Dat.arrays
  rw [bigSep_W0, (arr_whole0 0).set_eq_univ, (arr_whole0 2).set_eq_univ, (arr_whole0 3).set_eq_univ,
    (arr_whole0 4).set_eq_univ, (arr_whole0 5).set_eq_univ]
  rfl

/-- The distinct buffers behind the windows' arrays, whole, listed. -/
theorem arrBufs_chain (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_v0) ↦{fullShare} Vv main_v0)
          ∗ (((c : Thread nD τ).loc main_v1) ↦{fullShare} Vv main_v1) ∗ (((c : Thread nD τ).loc main_v2_0) ↦{fullShare} Vv main_v2_0)
          ∗ (((c : Thread nD τ).loc main_v2_1) ↦{fullShare} Vv main_v2_1)) := by
  unfold Pipeline.arrBufs
  exact bigSep_eq_bigSepL_of_eq [main_arg0, main_v0, main_v1, main_v2_0, main_v2_1] (by decide) (by decide) _

/-- ENTRY: the buffers behind the arrays, whole, make the pipeline's arrays at any contents that agree with them
    window by window — the embeddings' array split in its two halves. -/
theorem arrays_of_arrBufs (c : Dev nD) (Vv : (b : Ref sig .tc) → Buf (Elt F) ((c : Thread nD τ).loc b))
    (Fn : (w : Fin cfg0.W) → Buf (Elt F) ((cfg0.win w).arr.view.loc (c : Thread nD τ)))
    (h0 : Fn 0 = Vv main_arg0) (h1 : Fn 1 = Vv main_arg0) (h2 : Fn 2 = Vv main_v0) (h3 : Fn 3 = Vv main_v1)
    (h4 : Fn 4 = Vv main_v2_0) (h5 : Fn 5 = Vv main_v2_1) :
    (Pipeline.arrBufs (Ix := Unit) (Name := ℕ) (U := UR sig nD τ) (Lvl := ℕ) spec0 c Vv : sProp 𝕄) ⊢ (dats m 0 c).arrays Fn := by
  rw [arrays_chain, arrBufs_chain, h0, h1, h2, h3, h4, h5]
  iintro ⟨Ha, H0, H1, H4, H5⟩
  ihave Hs := (pointsTo_share (PosShare.mem_left_op_right fullShare)).1 $$ Ha
  icases Hs with ⟨Hl, Hr⟩
  isplitl [Hl]; · iexact Hl
  isplitl [Hr]; · iexact Hr
  isplitl [H0]; · iexact H0
  isplitl [H1]; · iexact H1
  isplitl [H4]; · iexact H4
  iexact H5

/-- EXIT: the pipeline's arrays, the two windows on the embeddings' array at one contents, are the buffers behind
    them, whole — the two halves joined. -/
theorem arrBufs_of_arrays (c : Dev nD) (Vv : (b : Ref sig .tc) → Buf (Elt F) ((c : Thread nD τ).loc b))
    (Fn : (w : Fin cfg0.W) → Buf (Elt F) ((cfg0.win w).arr.view.loc (c : Thread nD τ)))
    (h0 : Fn 0 = Vv main_arg0) (h1 : Fn 1 = Vv main_arg0) (h2 : Fn 2 = Vv main_v0) (h3 : Fn 3 = Vv main_v1)
    (h4 : Fn 4 = Vv main_v2_0) (h5 : Fn 5 = Vv main_v2_1) :
    ((dats m 0 c).arrays Fn : sProp 𝕄) ⊢ Pipeline.arrBufs (Ix := Unit) (Name := ℕ) (U := UR sig nD τ) (Lvl := ℕ) spec0 c Vv := by
  rw [arrays_chain, arrBufs_chain, h0, h1, h2, h3, h4, h5]
  iintro ⟨Hl, Hr, H0, H1, H4, H5⟩
  isplitl [Hl Hr]
  · iapply (pointsTo_share (PosShare.mem_left_op_right fullShare)).2
    isplitl [Hl] <;> iassumption
  isplitl [H0]; · iexact H0
  isplitl [H1]; · iexact H1
  isplitl [H4]; · iexact H4
  iexact H5

/-! ## The contents @main passes through -/

/-- Core `c`'s buffers at launch. -/
abbrev Vl (c : Dev nD) : Valuation τ sig (Elt F) := fun b => m (c, b)

/-- What the pipeline's write-backs leave in window `w`'s array. -/
abbrev finalA (c : Dev nD) (w : Fin cfg0.W) : Buf (Elt F) ((cfg0.win w).arr.view.loc (c : Thread nD τ)) := (dats m 0 c).arrAt w cfg0.N

/-- Core `c`'s buffers when the region is left: the two result columns at what the write-backs leave, every other
    buffer as the region found it. -/
def W1 (c : Dev nD) : Valuation τ sig (Elt F) :=
  Function.update (Function.update (V0 m c) (Proc.devRef .tc main_v2_0) (finalA m c 4)) (Proc.devRef .tc main_v2_1) (finalA m c 5)

/-- And at the end: the operations after the region have run. -/
abbrev Wend (c : Dev nD) : Valuation τ sig (Elt F) := StableHlo.after hostOps1_1 (StableHlo.after hostOps1 (W1 m c))

theorem W1_v2_0 (c : Dev nD) : W1 m c (Proc.devRef .tc main_v2_0) = finalA m c 4 := by
  unfold W1; rw [Function.update_of_ne (StableHlo.devRef_ne_of_ne (by decide)), Function.update_self]
theorem W1_v2_1 (c : Dev nD) : W1 m c (Proc.devRef .tc main_v2_1) = finalA m c 5 := by
  unfold W1; rw [Function.update_self]
theorem W1_of_ne (c : Dev nD) (b : Ref sig .tc) (h0 : b ≠ main_v2_0) (h1 : b ≠ main_v2_1) :
    W1 m c (Proc.devRef .tc b) = V0 m c (Proc.devRef .tc b) := by
  unfold W1
  rw [Function.update_of_ne (StableHlo.devRef_ne_of_ne h1), Function.update_of_ne (StableHlo.devRef_ne_of_ne h0)]

/-- The buffers that are no window's array keep their contents across the region. -/
theorem rest_W1 (c : Dev nD) :
    (Pipeline.unscopedRest (Ix := Unit) (Name := ℕ) (U := UR sig nD τ) (Lvl := ℕ) spec0 c (fun b => W1 m c (Proc.devRef .tc b)) : sProp 𝕄)
      = Pipeline.unscopedRest spec0 c (V m c) := by
  unfold Pipeline.unscopedRest
  exact bigSep_congr fun b hb => by
    have hb' := (Finset.mem_sdiff.mp hb).2
    dsimp only
    rw [W1_of_ne m c b (fun e => hb' (e ▸ Finset.mem_image.mpr ⟨4, Finset.mem_univ _, rfl⟩))
      (fun e => hb' (e ▸ Finset.mem_image.mpr ⟨5, Finset.mem_univ _, rfl⟩))]

/-! ## The segments -/

abbrev 𝒱₀ : Variants := Variants.none
/-- No core owes another anything: no level is assigned. -/
abbrev Lr : GSem nD τ sig → Finset Unit := fun _ => ∅
abbrev lvr : GSem nD τ sig → Unit → ℕ := fun _ _ => 0
/-- The prefetched tables' admissible contents: no table. -/
abbrev adm : (p : Fin 1) → (pcfgs (F := F) p).Adm := fun p => (cfgs p).toPCfg_adm
/-- The pipeline library's algebra is the certificate's. -/
abbrev EP : Emb (UR sig nD τ) (MT nD τ sig Unit (Elt F) ℕ (UR sig nD τ) ℕ) := emb₁

/-- What rides beside the buffers: the generator register and the core's `owes`. -/
abbrev Rr (c : Dev nD) : sProp 𝕄 := iprop((∃ r, prngReg c r) ∗ ∃ W, owes (c : Thread nD τ) (0 : CellTallies nD τ sig Unit) W)

theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h
theorem fresh1_1 : ∀ op ∈ (hostOps1_1 : List (HloOp τ sig (Elt F))), op.fresh = ∅ := by
  intro _ h; (repeat (cases h with | head => rfl | tail _ h => ?_)); exact nomatch h

/-- The two reshapes of the labels. -/
def seg0 : Pipeline.HostSeg (Name := ℕ) (U := UR sig nD τ) (pcfgs (F := F)) defs₀ 𝒱₀ Lr lvr :=
  Pipeline.HostSeg.ofOps _ _ _ _ _ (Pipeline.ucRefs τ sig) hostOps0 (fun op h => Pipeline.sub_ucRefs op ((List.forall_iff_forall_mem.mp hostOps0_sub) op h))
    fresh0 (Vl m) Rr
/-- The twelve operations after the region. -/
def seg1 : Pipeline.HostSeg (Name := ℕ) (U := UR sig nD τ) (pcfgs (F := F)) defs₀ 𝒱₀ Lr lvr :=
  Pipeline.HostSeg.ofOps _ _ _ _ _ (Pipeline.ucRefs τ sig) hostOps1 (fun op h => Pipeline.sub_ucRefs op ((List.forall_iff_forall_mem.mp hostOps1_sub) op h))
    fresh1 (W1 m) Rr
/-- The last selection. -/
def seg2 : Pipeline.HostSeg (Name := ℕ) (U := UR sig nD τ) (pcfgs (F := F)) defs₀ 𝒱₀ Lr lvr :=
  Pipeline.HostSeg.ofOps _ _ _ _ _ (Pipeline.ucRefs τ sig) hostOps1_1 (fun op h => Pipeline.sub_ucRefs op ((List.forall_iff_forall_mem.mp hostOps1_1_sub) op h))
    fresh1_1 (fun c => StableHlo.after hostOps1 (W1 m c)) Rr

/-- The input windows' arrays end as the region found them. -/
theorem final0 (c : Dev nD) : finalA m c 0 = W1 m c (Proc.devRef .tc main_arg0) :=
  ((dats m 0 c).arrAt_in 0 rfl _).trans ((A_eq m c 0).trans (W1_of_ne m c main_arg0 (by decide) (by decide)).symm)
theorem final1 (c : Dev nD) : finalA m c 1 = W1 m c (Proc.devRef .tc main_arg0) :=
  ((dats m 0 c).arrAt_in 1 rfl _).trans ((A_eq m c 1).trans (W1_of_ne m c main_arg0 (by decide) (by decide)).symm)
theorem final2 (c : Dev nD) : finalA m c 2 = W1 m c (Proc.devRef .tc main_v0) :=
  ((dats m 0 c).arrAt_in 2 rfl _).trans ((A_eq m c 2).trans (W1_of_ne m c main_v0 (by decide) (by decide)).symm)
theorem final3 (c : Dev nD) : finalA m c 3 = W1 m c (Proc.devRef .tc main_v1) :=
  ((dats m 0 c).arrAt_in 3 rfl _).trans ((A_eq m c 3).trans (W1_of_ne m c main_v1 (by decide) (by decide)).symm)

set_option backward.isDefEq.respectTransparency.types false in
/-- THE REGION: entered from what the reshapes left — the embeddings' array split between its two windows, the generator
    register into the invariant, every buffer that is no window's array bypassing —, left with the halves joined and
    the result columns at what the write-backs leave. -/
def reg0 : Pipeline.RegionSeg (pcfgs (F := F)) adm (dats m) () defs₀ 𝒱₀ Lr lvr 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lr lvr 0 fun _ _ => rfl
  pre c := iprop(StableHlo.held (c : Thread nD τ) (Pipeline.ucRefs τ sig) (V0 m c) ∗ Rr c)
  post c := iprop(StableHlo.held (c : Thread nD τ) (Pipeline.ucRefs τ sig) (W1 m c) ∗ Rr c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [show StableHlo.held (c : Thread nD τ) (Pipeline.ucRefs τ sig) (V0 m c) = unscopedBufs c (V m c) from (Pipeline.unscopedBufs_held c _).symm,
      Pipeline.unscopedBufs_split₀ cfgs 0 winFacts₀0.arr_unscoped c (V m c)]
    iintro ⟨⟨⟨Hab, Hrest⟩, Hp, HO⟩, -, -⟩
    have hsplit := arrays_of_arrBufs m c (V m c) (fun w => (dats m 0 c).arrAt w 0) (A_eq m c 0) (A_eq m c 1) (A_eq m c 2) (A_eq m c 3) (A_eq m c 4) (A_eq m c 5)
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [show StableHlo.held (c : Thread nD τ) (Pipeline.ucRefs τ sig) (W1 m c) = unscopedBufs c (fun b => W1 m c (Proc.devRef .tc b)) from (Pipeline.unscopedBufs_held c _).symm,
      Pipeline.unscopedBufs_split₀ cfgs 0 winFacts₀0.arr_unscoped c (fun b => W1 m c (Proc.devRef .tc b)), rest_W1]
    iintro ⟨Ha, HO, Hp, HZ⟩
    have hjoin := arrBufs_of_arrays m c (fun b => W1 m c (Proc.devRef .tc b)) (fun w => (dats m 0 c).arrAt w cfg0.N)
      (final0 m c) (final1 m c) (final2 m c) (final3 m c) (W1_v2_0 m c).symm (W1_v2_1 m c).symm
    ihave Hab := hjoin $$ Ha
    imodintro
    isplitl [Hab HZ]
    · isplitl [Hab] <;> iassumption
    isplitl [Hp]; · iexact Hp
    unfold Pipeline.Dat.owesAt Pipeline.owesWithin
    icases HO with ⟨%W, -, HO⟩; iexists W; iexact HO

/-- @main as the list of its four segments. -/
abbrev segs : List (Pipeline.Seg (pcfgs (F := F)) adm (dats m) () defs₀ 𝒱₀ Lr lvr) :=
  [.host (seg0 m), .region (reg0 m), .host (seg1 m), .host (seg2 m)]

/-! ## What the host operations leave of the arguments -/

theorem V0_arg0 (c : Dev nD) : V0 m c (Proc.devRef .tc main_arg0) = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V0_arg1 (c : Dev nD) : V0 m c (Proc.devRef .tc main_arg1) = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

/-- No operation after the region writes an argument. -/
theorem Wend_of_arg (c : Dev nD) (b : Ref sig .tc)
    (hb : b ≠ main_v3 ∧ b ≠ main_v4 ∧ b ≠ main_cst ∧ b ≠ main_v5 ∧ b ≠ main_cst_0 ∧ b ≠ main_v6 ∧ b ≠ main_cst_1 ∧ b ≠ main_v7 ∧ b ≠ main_v8
      ∧ b ≠ main_cst_2 ∧ b ≠ main_v9 ∧ b ≠ main_cst_3 ∧ b ≠ main_call0_v0 ∧ b ≠ main_v10) :
    Wend m c (Proc.devRef .tc b) = W1 m c (Proc.devRef .tc b) := by
  obtain ⟨h0, h1, h2, h3, h4, h5, h6, h7, h8, h9, h10, h11, h12, h13⟩ := hb
  unfold Wend
  rw [StableHlo.after_of_forall_not_mem (b := Proc.devRef .tc b) _ _ (List.forall_iff_forall_mem.mp (by
      simp only [hostOps1_1, StableHlo.TRef.unary, StableHlo.TRef.ternary, List.Forall, StableHlo.unary_writes, StableHlo.ternary_writes, Finset.mem_singleton]
      repeat' apply And.intro
      all_goals exact StableHlo.devRef_ne_of_ne ‹_›)),
    StableHlo.after_of_forall_not_mem (b := Proc.devRef .tc b) _ _ (List.forall_iff_forall_mem.mp (by
      simp only [hostOps1, List.Forall, StableHlo.nullary_writes, StableHlo.unary_writes, StableHlo.binary_writes, StableHlo.reshape_writes, Finset.mem_singleton]
      repeat' apply And.intro
      all_goals exact StableHlo.devRef_ne_of_ne ‹_›))]

theorem Wend_arg0 (c : Dev nD) : Wend m c (Proc.devRef .tc main_arg0) = m ((c : Thread nD τ).loc main_arg0) :=
  (Wend_of_arg m c main_arg0 (by decide)).trans ((W1_of_ne m c main_arg0 (by decide) (by decide)).trans (V0_arg0 m c))
theorem Wend_arg1 (c : Dev nD) : Wend m c (Proc.devRef .tc main_arg1) = m ((c : Thread nD τ).loc main_arg1) :=
  (Wend_of_arg m c main_arg1 (by decide)).trans ((W1_of_ne m c main_arg1 (by decide) (by decide)).trans (V0_arg1 m c))

/-! ## The run -/

/-- The three buffers the claims read at the end. -/
def readRefs : List (DevRef τ sig) := [Proc.devRef .tc main_v10, Proc.devRef .tc main_arg0, Proc.devRef .tc main_arg1]

theorem readRefs_sub : readRefs.toFinset ⊆ Pipeline.ucRefs τ sig := by decide

omit [FloatOps F] in
theorem held_readRefs (c : Dev nD) (Wv : Valuation τ sig (Elt F)) :
    (StableHlo.held (c : Thread nD τ) readRefs.toFinset Wv : sProp 𝕄)
      = iprop((((c : Thread nD τ).loc main_v10) ↦{fullShare} Wv (Proc.devRef .tc main_v10))
          ∗ (((c : Thread nD τ).loc main_arg0) ↦{fullShare} Wv (Proc.devRef .tc main_arg0))
          ∗ (((c : Thread nD τ).loc main_arg1) ↦{fullShare} Wv (Proc.devRef .tc main_arg1))) := by
  unfold StableHlo.held
  exact bigSep_eq_bigSepL_of_eq readRefs rfl (by decide) _

/-- The physical post: the result buffer at what the operations after the region compute from what the region left, and
    both arguments as launched. -/
def QC : PUnit × MemSt nD τ sig (Elt F) → Prop := fun r => ∀ c : Dev nD,
  r.2.mem ((c : Thread nD τ).loc main_v10) = Wend m c (Proc.devRef .tc main_v10)
  ∧ r.2.mem ((c : Thread nD τ).loc main_arg0) = m ((c : Thread nD τ).loc main_arg0)
  ∧ r.2.mem ((c : Thread nD τ).loc main_arg1) = m ((c : Thread nD τ).loc main_arg1)

set_option backward.isDefEq.respectTransparency.types false in
/-- At the compiled mesh, for any float values, from any memory with zero counters: every weakly fair execution of
    @main on the TensorCores terminates, nothing faulting, and every final state has the result buffer at the
    operations' value of the two result columns and both arguments unchanged. -/
theorem run_main : θ_run defs (onTc (τ := τ) (main (F := F))) ⟨m, fun _ => 0, ρ⟩ (QC m) :=
  Pipeline.θ_run_regions_kit (pcfgs (F := F)) adm (dats m) () cellOf_inj EP defs₀ 𝒱₀ Lr lvr m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ Rr c))
    (Tₙ := fun c => iprop(StableHlo.held (c : Thread nD τ) (Pipeline.ucRefs τ sig) (Wend m c) ∗ ∃ r, prngReg c r))
    (hch := ⟨fun _ => .rfl, fun _ => .rfl, fun _ => .rfl, fun _ => .rfl, fun c => by
      show iprop(StableHlo.held (c : Thread nD τ) (Pipeline.ucRefs τ sig) (Wend m c) ∗ Rr c) ⊢ _
      iintro ⟨Hh, Hp, HO⟩
      isplitl [Hh Hp]
      · isplitl [Hh] <;> iassumption
      iexact HO⟩)
    (hinit := by
      refine Pipeline.initEach Lr lvr fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, Hp, -⟩, -⟩
      imodintro
      isplitl [Hh]; · iexact Hh
      isplitl [Hp]; · iexists _; iexact Hp
      iexists ∅; iexact HO)
    (QY := fun c s => s.mem ((c : Thread nD τ).loc main_v10) = Wend m c (Proc.devRef .tc main_v10)
      ∧ s.mem ((c : Thread nD τ).loc main_arg0) = m ((c : Thread nD τ).loc main_arg0)
      ∧ s.mem ((c : Thread nD τ).loc main_arg1) = m ((c : Thread nD τ).loc main_arg1))
    (hfin := fun c s' => by
      rw [StableHlo.held_sub_split (c : Thread nD τ) readRefs_sub (Wend m c), held_readRefs]
      iintro ⟨⟨⟨⟨H10, H0, H1⟩, -⟩, -⟩, HSI⟩
      icombine HSI H10 gives %h10
      icombine HSI H0 gives %h0
      icombine HSI H1 gives %h1
      imodintro
      isplitr
      · ipureintro
        exact ⟨Buf.eq_of_forall_mem_univ h10, (Buf.eq_of_forall_mem_univ h0).trans (Wend_arg0 m c), (Buf.eq_of_forall_mem_univ h1).trans (Wend_arg1 m c)⟩
      iexact HSI)
    (hQ := fun _ h => h)

end Cert.Kernel.Hand

end
-- ==== Proof.KIBody.lean ====
/-
  The body of the contrastive kernel, run once at a grid point, and the pipeline's proof data.

  At grid point `t` the kernel is handed six staging buffers: the block of 256 embedding rows `256·t … 256·t + 255`
  (window 0), the whole embedding array again as the keys (window 1: the same array as window 0), the block's 256
  labels as a column (window 2), all 4096 labels as a row (window 3), and the two output columns of 256 entries
  (windows 4 and 5). It loads the four inputs whole, computes, and stores each output column whole: the per-row
  contribution (window 4) and the per-row count (window 5). So after the body each input buffer holds what it
  held — its block of the array — and each output buffer holds one pure function of the four input blocks and of
  the grid point (the diagonal of the similarity matrix sits at column `256·t + p` of row `p`): `out0_4`, `out0_5`.
-/
import proofs.«177116_j84293028151332_1_alg».proof.Proof.Gen.KernelIdeal.Launch
import proofs.«177116_j84293028151332_1_alg».proof.Proof.Gen.KernelIdeal.Skeleton
import proofs.«177116_j84293028151332_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The arrays as the region finds them -/

/-- Core `c`'s buffer contents when the region is entered: the two reshapes of the labels have run. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not (the whole-array
    windows 1 and 3 are fetched at the first point only, and their block never moves), for any proof data whose
    array is the region-entry contents and whose body leaves the block in place. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's accesses: each buffer whole -/

abbrev r0_0 : Rect S256x512 := Rect.unit (s := S256x512) ![0, 0] S256x512.size inb_S256x512_S256x512_0_0
abbrev r0_1 : Rect S4096x512 := Rect.unit (s := S4096x512) ![0, 0] S4096x512.size inb_S4096x512_S4096x512_0_0
abbrev r0_2 : Rect S256x1 := Rect.unit (s := S256x1) ![0, 0] S256x1.size inb_S256x1_S256x1_0_0
abbrev r0_3 : Rect S1x4096 := Rect.unit (s := S1x4096) ![0, 0] S1x4096.size inb_S1x4096_S1x4096_0_0

/-! ## What the body leaves in each output column -/

/-- The contributions' column after the body at grid coordinates `i`, from the four input blocks: its one whole
    store, of the per-row contribution computed from the positives' sums, the whole sums and the has-a-positive bits. -/
def out0_4 (i : grid0.Coords) (x0 : Vec F S256x512 .f32) (x1 : Vec F S4096x512 .f32) (x2 : Vec F S256x1 .i32) (x3 : Vec F S1x4096 .i32) : Vec F S256x1 .f32 :=
  View.canon [⟨r0_2, k0_pay1 (k0_pay6 i (View.ld x0 r0_0) (View.ld x1 r0_1) (View.ld x2 r0_2) (View.ld x3 r0_3)) (k0_pay7 i (View.ld x0 r0_0) (View.ld x1 r0_1)) (k0_pay8 i (View.ld x2 r0_2) (View.ld x3 r0_3))⟩]

/-- The counts' column after the body: its one whole store, of the has-a-positive bits as numbers. -/
def out0_5 (i : grid0.Coords) (x2 : Vec F S256x1 .i32) (x3 : Vec F S1x4096 .i32) : Vec F S256x1 .f32 :=
  View.canon [⟨r0_2, k0_pay2 (F := F) (k0_pay8 i (View.ld x2 r0_2) (View.ld x3 r0_3))⟩]

/-- A whole store covers the column. -/
theorem cover0_45 (p0 : Vec F S256x1 .f32) (y : S256x1.Idx) :
    ∃ pc ∈ ([⟨r0_2, p0⟩] : List (View.Piece (Elt F) S256x1 .f32)), y ∈ pc.1.set :=
  View.cover_of_tiled [⟨r0_2, p0⟩] S256x1.size (by rfl) y

/-! ## The body's triple -/

set_option maxHeartbeats 4000000 in
/-- The kernel body on whole staging buffers, the four inputs' at read contents and the two outputs' at anything,
    runs to the continuation holding the inputs' as they were and each output's at its column. -/
theorem sound_kernel (c : Dev nD) (E : Set ℕ) (i : grid0.Coords)
    (arg1 : Memref sig .tc .vmem S256x512 .f32) (harg1 : arg1.IsWhole) (arg2 : Memref sig .tc .vmem S4096x512 .f32) (harg2 : arg2.IsWhole)
    (arg3 : Memref sig .tc .vmem S256x1 .i32) (harg3 : arg3.IsWhole) (arg4 : Memref sig .tc .vmem S1x4096 .i32) (harg4 : arg4.IsWhole)
    (arg5 : Memref sig .tc .vmem S256x1 .f32) (harg5 : arg5.IsWhole) (arg6 : Memref sig .tc .vmem S256x1 .f32) (harg6 : arg6.IsWhole)
    (x0 : Vec F S256x512 .f32) (x1 : Vec F S4096x512 .f32) (x2 : Vec F S256x1 .i32) (x3 : Vec F S1x4096 .i32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out0_4 i x0 x1 x2 x3)
            ∗ owns (c : Thread nD τ) arg6 fullShare (out0_5 i x2 x3)) -∗ K ⟨⟩))
      ⊢ wp frame (wpE (defs₀ (F := F)) Variants.none c none) E (cc0__contrastive_kernel i arg1 harg1 arg2 harg2 arg3 harg3 arg4 harg4 arg5 harg5 arg6 harg6) K := by
  simp only [cc0__contrastive_kernel_eq_skeleton]; unfold cc0__contrastive_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    try dsimp only
    exact View.read_writes_eq_canon _ _ _ (cover0_45 _)
  iexists _; isplitr
  swap; · iexact H5
  ipureintro
  try dsimp only
  exact View.read_writes_eq_canon _ _ _ (cover0_45 _)

/-! ## The pipeline's proof data -/

/-- The proof data of the one pipeline on core `c`: the arrays as the region finds them; after the body at point
    `t` each input's buffer at its block and each output's at its column of the input blocks; the invariant the
    scoped buffers no window stages and the generator register, untouched; nothing owed. The embeddings' array is
    read through TWO windows (the block of rows and the whole array): each holds one half of it; every other array
    is held whole. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (grid0.coords t) (iblk m c 0 t) (iblk m c 1 t) (iblk m c 2 t) (iblk m c 3 t)
    | ⟨5, _⟩ => out0_5 (grid0.coords t) (iblk m c 2 t) (iblk m c 3 t)
  Φ _ := Pipeline.ΦA spec0 c
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

/-- The proof data's arrays are the region-entry contents. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (grid0.coords t) (iblk m c 0 t) (iblk m c 1 t) (iblk m c 2 t) (iblk m c 3 t) := by dsimp only [dats]
theorem after0_5 (c : Dev nD) (t : Fin cfg0.N) :
    (dats m 0 c).after 5 t = out0_5 (grid0.coords t) (iblk m c 2 t) (iblk m c 3 t) := by dsimp only [dats]

/-- Each input's current staging buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at any point: the inputs' buffers hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5]
  iintro ⟨HΦ, Ho, ⟨%d0, H0⟩, ⟨%d1, H1⟩, ⟨%d2, H2⟩, ⟨%d3, H3⟩, ⟨%d4, H4⟩, ⟨%d5, H5⟩⟩
  iapply (sound_kernel c Set.univ (grid0.coords t) _ _ _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KIRun.lean ====
/-
  The launch of the contrastive kernel's program: @main as host operations, the kernel region, host operations.

  @main reshapes the labels twice (a column and a row), launches the kernel on the embeddings twice over (the block
  of rows and the whole array: TWO windows on ONE array), the two reshaped labels and two result columns, and then
  reshapes the result columns, sums each, and divides the contributions' sum by the count (at least one), with `0`
  for a count that is not positive. Its run is the library's for a list of segments: the host operations before the
  region, the region, the host operations after it. At the region's entry the embeddings' array, held whole, is split in
  two halves, one per window; at the exit the halves are joined again. Every buffer the host operations name is
  tracked at its value, so the run's post names the result buffer's final contents: the operations after the region
  applied to what the region left in the two result columns.
-/
import proofs.«177116_j84293028151332_1_alg».proof.Proof.KIBody
import Idealize.ShloMosaic.Lib.Pipeline.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The windows' arrays: one array behind two windows -/

/-- The pipeline's arrays at contents `Fn`, window by window: the embeddings' array once at each half share (the block
    window and the whole-array window), the two reshaped label arrays and the two result columns whole. -/
theorem arrays_chain (c : Dev nD) (Fn : (w : Fin cfg0.W) → Buf (Elt F) ((cfg0.win w).arr.view.loc (c : Thread nD τ))) :
    ((dats m 0 c).arrays Fn : sProp 𝕄)
      = iprop((((c : Thread nD τ).loc main_arg0) ↦{fullShare.left} Fn 0) ∗ (((c : Thread nD τ).loc main_arg0) ↦{fullShare.right} Fn 1)
          ∗ (((c : Thread nD τ).loc main_v0) ↦{fullShare} Fn 2) ∗ (((c : Thread nD τ).loc main_v1) ↦{fullShare} Fn 3)
          ∗ (((c : Thread nD τ).loc main_v2_0) ↦{fullShare} Fn 4) ∗ (((c : Thread nD τ).loc main_v2_1) ↦{fullShare} Fn 5)) := by
  unfold Dat.arrays
  rw [bigSep_W0, (arr_whole0 0).set_eq_univ, (arr_whole0 2).set_eq_univ, (arr_whole0 3).set_eq_univ,
    (arr_whole0 4).set_eq_univ, (arr_whole0 5).set_eq_univ]
  rfl

/-- The distinct buffers behind the windows' arrays, whole, listed. -/
theorem arrBufs_chain (c : Dev nD) (Vv : (b : Ref sig .tc) → Buf (Elt F) ((c : Thread nD τ).loc b)) :
    (Pipeline.arrBufs (Ix := Unit) (Name := ℕ) (U := UR sig nD τ) (Lvl := ℕ) spec0 c Vv : sProp 𝕄)
      = iprop((((c : Thread nD τ).loc main_arg0) ↦{fullShare} Vv main_arg0) ∗ (((c : Thread nD τ).loc main_v0) ↦{fullShare} Vv main_v0)
          ∗ (((c : Thread nD τ).loc main_v1) ↦{fullShare} Vv main_v1) ∗ (((c : Thread nD τ).loc main_v2_0) ↦{fullShare} Vv main_v2_0)
          ∗ (((c : Thread nD τ).loc main_v2_1) ↦{fullShare} Vv main_v2_1)) := by
  unfold Pipeline.arrBufs
  exact bigSep_eq_bigSepL_of_eq [main_arg0, main_v0, main_v1, main_v2_0, main_v2_1] (by decide) (by decide) _

/-- ENTRY: the buffers behind the arrays, whole, make the pipeline's arrays at any contents that agree with them
    window by window — the embeddings' array split in its two halves. -/
theorem arrays_of_arrBufs (c : Dev nD) (Vv : (b : Ref sig .tc) → Buf (Elt F) ((c : Thread nD τ).loc b))
    (Fn : (w : Fin cfg0.W) → Buf (Elt F) ((cfg0.win w).arr.view.loc (c : Thread nD τ)))
    (h0 : Fn 0 = Vv main_arg0) (h1 : Fn 1 = Vv main_arg0) (h2 : Fn 2 = Vv main_v0) (h3 : Fn 3 = Vv main_v1)
    (h4 : Fn 4 = Vv main_v2_0) (h5 : Fn 5 = Vv main_v2_1) :
    (Pipeline.arrBufs (Ix := Unit) (Name := ℕ) (U := UR sig nD τ) (Lvl := ℕ) spec0 c Vv : sProp 𝕄) ⊢ (dats m 0 c).arrays Fn := by
  rw [arrays_chain, arrBufs_chain, h0, h1, h2, h3, h4, h5]
  iintro ⟨Ha, H0, H1, H4, H5⟩
  ihave Hs := (pointsTo_share (PosShare.mem_left_op_right fullShare)).1 $$ Ha
  icases Hs with ⟨Hl, Hr⟩
  isplitl [Hl]; · iexact Hl
  isplitl [Hr]; · iexact Hr
  isplitl [H0]; · iexact H0
  isplitl [H1]; · iexact H1
  isplitl [H4]; · iexact H4
  iexact H5

/-- EXIT: the pipeline's arrays, the two windows on the embeddings' array at one contents, are the buffers behind
    them, whole — the two halves joined. -/
theorem arrBufs_of_arrays (c : Dev nD) (Vv : (b : Ref sig .tc) → Buf (Elt F) ((c : Thread nD τ).loc b))
    (Fn : (w : Fin cfg0.W) → Buf (Elt F) ((cfg0.win w).arr.view.loc (c : Thread nD τ)))
    (h0 : Fn 0 = Vv main_arg0) (h1 : Fn 1 = Vv main_arg0) (h2 : Fn 2 = Vv main_v0) (h3 : Fn 3 = Vv main_v1)
    (h4 : Fn 4 = Vv main_v2_0) (h5 : Fn 5 = Vv main_v2_1) :
    ((dats m 0 c).arrays Fn : sProp 𝕄) ⊢ Pipeline.arrBufs (Ix := Unit) (Name := ℕ) (U := UR sig nD τ) (Lvl := ℕ) spec0 c Vv := by
  rw [arrays_chain, arrBufs_chain, h0, h1, h2, h3, h4, h5]
  iintro ⟨Hl, Hr, H0, H1, H4, H5⟩
  isplitl [Hl Hr]
  · iapply (pointsTo_share (PosShare.mem_left_op_right fullShare)).2
    isplitl [Hl] <;> iassumption
  isplitl [H0]; · iexact H0
  isplitl [H1]; · iexact H1
  isplitl [H4]; · iexact H4
  iexact H5

/-! ## The contents @main passes through -/

/-- Core `c`'s buffers at launch. -/
abbrev Vl (c : Dev nD) : Valuation τ sig (Elt F) := fun b => m (c, b)

/-- What the pipeline's write-backs leave in window `w`'s array. -/
abbrev finalA (c : Dev nD) (w : Fin cfg0.W) : Buf (Elt F) ((cfg0.win w).arr.view.loc (c : Thread nD τ)) := (dats m 0 c).arrAt w cfg0.N

/-- Core `c`'s buffers when the region is left: the two result columns at what the write-backs leave, every other
    buffer as the region found it. -/
def W1 (c : Dev nD) : Valuation τ sig (Elt F) :=
  Function.update (Function.update (V0 m c) (Proc.devRef .tc main_v2_0) (finalA m c 4)) (Proc.devRef .tc main_v2_1) (finalA m c 5)

/-- And at the end: the operations after the region have run. -/
abbrev Wend (c : Dev nD) : Valuation τ sig (Elt F) := StableHlo.after hostOps1_1 (StableHlo.after hostOps1 (W1 m c))

theorem W1_v2_0 (c : Dev nD) : W1 m c (Proc.devRef .tc main_v2_0) = finalA m c 4 := by
  unfold W1; rw [Function.update_of_ne (StableHlo.devRef_ne_of_ne (by decide)), Function.update_self]
theorem W1_v2_1 (c : Dev nD) : W1 m c (Proc.devRef .tc main_v2_1) = finalA m c 5 := by
  unfold W1; rw [Function.update_self]
theorem W1_of_ne (c : Dev nD) (b : Ref sig .tc) (h0 : b ≠ main_v2_0) (h1 : b ≠ main_v2_1) :
    W1 m c (Proc.devRef .tc b) = V0 m c (Proc.devRef .tc b) := by
  unfold W1
  rw [Function.update_of_ne (StableHlo.devRef_ne_of_ne h1), Function.update_of_ne (StableHlo.devRef_ne_of_ne h0)]

/-- The buffers that are no window's array keep their contents across the region. -/
theorem rest_W1 (c : Dev nD) :
    (Pipeline.unscopedRest (Ix := Unit) (Name := ℕ) (U := UR sig nD τ) (Lvl := ℕ) spec0 c (fun b => W1 m c (Proc.devRef .tc b)) : sProp 𝕄)
      = Pipeline.unscopedRest spec0 c (V m c) := by
  unfold Pipeline.unscopedRest
  exact bigSep_congr fun b hb => by
    have hb' := (Finset.mem_sdiff.mp hb).2
    dsimp only
    rw [W1_of_ne m c b (fun e => hb' (e ▸ Finset.mem_image.mpr ⟨4, Finset.mem_univ _, rfl⟩))
      (fun e => hb' (e ▸ Finset.mem_image.mpr ⟨5, Finset.mem_univ _, rfl⟩))]

/-! ## The segments -/

abbrev 𝒱₀ : Variants := Variants.none
/-- No core owes another anything: no level is assigned. -/
abbrev Lr : GSem nD τ sig → Finset Unit := fun _ => ∅
abbrev lvr : GSem nD τ sig → Unit → ℕ := fun _ _ => 0
/-- The prefetched tables' admissible contents: no table. -/
abbrev adm : (p : Fin 1) → (pcfgs (F := F) p).Adm := fun p => (cfgs p).toPCfg_adm
/-- The pipeline library's algebra is the certificate's. -/
abbrev EP : Emb (UR sig nD τ) (MT nD τ sig Unit (Elt F) ℕ (UR sig nD τ) ℕ) := emb₁

/-- What rides beside the buffers: the generator register and the core's `owes`. -/
abbrev Rr (c : Dev nD) : sProp 𝕄 := iprop((∃ r, prngReg c r) ∗ ∃ W, owes (c : Thread nD τ) (0 : CellTallies nD τ sig Unit) W)

theorem fresh0 : ∀ op ∈ (hostOps0 : List (HloOp τ sig (Elt F))), op.fresh = ∅ := by
  intro _ h; (repeat (cases h with | head => rfl | tail _ h => ?_)); exact nomatch h
theorem fresh1 : ∀ op ∈ (hostOps1 : List (HloOp τ sig (Elt F))), op.fresh = ∅ := by
  intro _ h; (repeat (cases h with | head => rfl | tail _ h => ?_)); exact nomatch h
theorem fresh1_1 : ∀ op ∈ (hostOps1_1 : List (HloOp τ sig (Elt F))), op.fresh = ∅ := by
  intro _ h; (repeat (cases h with | head => rfl | tail _ h => ?_)); exact nomatch h

/-- The two reshapes of the labels. -/
def seg0 : Pipeline.HostSeg (Name := ℕ) (U := UR sig nD τ) (pcfgs (F := F)) defs₀ 𝒱₀ Lr lvr :=
  Pipeline.HostSeg.ofOps _ _ _ _ _ (Pipeline.ucRefs τ sig) hostOps0 (fun op h => Pipeline.sub_ucRefs op ((List.forall_iff_forall_mem.mp hostOps0_sub) op h))
    fresh0 (Vl m) Rr
/-- The twelve operations after the region. -/
def seg1 : Pipeline.HostSeg (Name := ℕ) (U := UR sig nD τ) (pcfgs (F := F)) defs₀ 𝒱₀ Lr lvr :=
  Pipeline.HostSeg.ofOps _ _ _ _ _ (Pipeline.ucRefs τ sig) hostOps1 (fun op h => Pipeline.sub_ucRefs op ((List.forall_iff_forall_mem.mp hostOps1_sub) op h))
    fresh1 (W1 m) Rr
/-- The last selection. -/
def seg2 : Pipeline.HostSeg (Name := ℕ) (U := UR sig nD τ) (pcfgs (F := F)) defs₀ 𝒱₀ Lr lvr :=
  Pipeline.HostSeg.ofOps _ _ _ _ _ (Pipeline.ucRefs τ sig) hostOps1_1 (fun op h => Pipeline.sub_ucRefs op ((List.forall_iff_forall_mem.mp hostOps1_1_sub) op h))
    fresh1_1 (fun c => StableHlo.after hostOps1 (W1 m c)) Rr

/-- The input windows' arrays end as the region found them. -/
theorem final0 (c : Dev nD) : finalA m c 0 = W1 m c (Proc.devRef .tc main_arg0) :=
  ((dats m 0 c).arrAt_in 0 rfl _).trans ((A_eq m c 0).trans (W1_of_ne m c main_arg0 (by decide) (by decide)).symm)
theorem final1 (c : Dev nD) : finalA m c 1 = W1 m c (Proc.devRef .tc main_arg0) :=
  ((dats m 0 c).arrAt_in 1 rfl _).trans ((A_eq m c 1).trans (W1_of_ne m c main_arg0 (by decide) (by decide)).symm)
theorem final2 (c : Dev nD) : finalA m c 2 = W1 m c (Proc.devRef .tc main_v0) :=
  ((dats m 0 c).arrAt_in 2 rfl _).trans ((A_eq m c 2).trans (W1_of_ne m c main_v0 (by decide) (by decide)).symm)
theorem final3 (c : Dev nD) : finalA m c 3 = W1 m c (Proc.devRef .tc main_v1) :=
  ((dats m 0 c).arrAt_in 3 rfl _).trans ((A_eq m c 3).trans (W1_of_ne m c main_v1 (by decide) (by decide)).symm)

set_option backward.isDefEq.respectTransparency.types false in
/-- THE REGION: entered from what the reshapes left — the embeddings' array split between its two windows, the generator
    register into the invariant, every buffer that is no window's array bypassing —, left with the halves joined and
    the result columns at what the write-backs leave. -/
def reg0 : Pipeline.RegionSeg (pcfgs (F := F)) adm (dats m) () defs₀ 𝒱₀ Lr lvr 0 where
  win := winFacts₀0
  block_pos := block_pos0
  stage_whole := stage_whole0
  K := PEmpty
  osem := fun k => k.elim
  ho := Pipeline.OwnSemFacts.none _
  hbody c := (body_obligation m c).loose
  hwaits := Pipeline.hwaits_of_owed_zero _ _ _ _ Lr lvr 0 fun _ _ => rfl
  pre c := iprop(StableHlo.held (c : Thread nD τ) (Pipeline.ucRefs τ sig) (V0 m c) ∗ Rr c)
  post c := iprop(StableHlo.held (c : Thread nD τ) (Pipeline.ucRefs τ sig) (W1 m c) ∗ Rr c)
  X c := iprop(∃ r, prngReg c r)
  Y c := iprop(∃ r, prngReg c r)
  Z c := Pipeline.unscopedRest (Ix := Unit) (Name := ℕ) (U := UR sig nD τ) (Lvl := ℕ) spec0 c (V m c)
  hentry c := by
    rw [show StableHlo.held (c : Thread nD τ) (Pipeline.ucRefs τ sig) (V0 m c) = unscopedBufs c (V m c) from (Pipeline.unscopedBufs_held c _).symm,
      Pipeline.unscopedBufs_split₀ cfgs 0 winFacts₀0.arr_unscoped c (V m c)]
    iintro ⟨⟨⟨Hab, Hrest⟩, Hp, HO⟩, -, -⟩
    have hsplit := arrays_of_arrBufs m c (V m c) (fun w => (dats m 0 c).arrAt w 0) (A_eq m c 0) (A_eq m c 1) (A_eq m c 2) (A_eq m c 3) (A_eq m c 4) (A_eq m c 5)
    ihave Ha := hsplit $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (dats m 0 c).Φ 0 = Pipeline.ΦA spec0 c from rfl]; unfold Pipeline.ΦA
    iintro ⟨Hp, -, Hr⟩
    isplitl [Hr]; · iexact Hr
    iexact Hp
  hout c := by
    rw [Pipeline.ownSems0_none, show (dats m 0 c).Φ (Fin.last cfg0.N) = Pipeline.ΦA spec0 c from rfl]; unfold Pipeline.ΦA
    iintro ⟨Hr, Hp⟩
    isplitl [Hp]; · iexact Hp
    isplitr; · iempintro
    iexact Hr
  hexit c := by
    rw [show StableHlo.held (c : Thread nD τ) (Pipeline.ucRefs τ sig) (W1 m c) = unscopedBufs c (fun b => W1 m c (Proc.devRef .tc b)) from (Pipeline.unscopedBufs_held c _).symm,
      Pipeline.unscopedBufs_split₀ cfgs 0 winFacts₀0.arr_unscoped c (fun b => W1 m c (Proc.devRef .tc b)), rest_W1]
    iintro ⟨Ha, HO, Hp, HZ⟩
    have hjoin := arrBufs_of_arrays m c (fun b => W1 m c (Proc.devRef .tc b)) (fun w => (dats m 0 c).arrAt w cfg0.N)
      (final0 m c) (final1 m c) (final2 m c) (final3 m c) (W1_v2_0 m c).symm (W1_v2_1 m c).symm
    ihave Hab := hjoin $$ Ha
    imodintro
    isplitl [Hab HZ]
    · isplitl [Hab] <;> iassumption
    isplitl [Hp]; · iexact Hp
    unfold Pipeline.Dat.owesAt Pipeline.owesWithin
    icases HO with ⟨%W, -, HO⟩; iexists W; iexact HO

/-- @main as the list of its four segments. -/
abbrev segs : List (Pipeline.Seg (pcfgs (F := F)) adm (dats m) () defs₀ 𝒱₀ Lr lvr) :=
  [.host (seg0 m), .region (reg0 m), .host (seg1 m), .host (seg2 m)]

/-! ## What the host operations leave of the arguments -/

theorem V0_arg0 (c : Dev nD) : V0 m c (Proc.devRef .tc main_arg0) = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    repeat' apply And.intro
    all_goals exact StableHlo.devRef_ne_of_ne (by decide)))
theorem V0_arg1 (c : Dev nD) : V0 m c (Proc.devRef .tc main_arg1) = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    repeat' apply And.intro
    all_goals exact StableHlo.devRef_ne_of_ne (by decide)))

/-- No operation after the region writes an argument. -/
theorem Wend_of_arg (c : Dev nD) (b : Ref sig .tc)
    (hb : b ≠ main_v3 ∧ b ≠ main_v4 ∧ b ≠ main_cst ∧ b ≠ main_v5 ∧ b ≠ main_cst_0 ∧ b ≠ main_v6 ∧ b ≠ main_cst_1 ∧ b ≠ main_v7 ∧ b ≠ main_v8
      ∧ b ≠ main_cst_2 ∧ b ≠ main_v9 ∧ b ≠ main_cst_3 ∧ b ≠ main_call0_v0 ∧ b ≠ main_v10) :
    Wend m c (Proc.devRef .tc b) = W1 m c (Proc.devRef .tc b) := by
  obtain ⟨h0, h1, h2, h3, h4, h5, h6, h7, h8, h9, h10, h11, h12, h13⟩ := hb
  unfold Wend
  rw [StableHlo.after_of_forall_not_mem (b := Proc.devRef .tc b) _ _ (List.forall_iff_forall_mem.mp (by
      simp only [hostOps1_1, StableHlo.TRef.unary, StableHlo.TRef.ternary, List.Forall, StableHlo.unary_writes, StableHlo.ternary_writes, Finset.mem_singleton]
      repeat' apply And.intro
      all_goals exact StableHlo.devRef_ne_of_ne ‹_›)),
    StableHlo.after_of_forall_not_mem (b := Proc.devRef .tc b) _ _ (List.forall_iff_forall_mem.mp (by
      simp only [hostOps1, List.Forall, StableHlo.nullary_writes, StableHlo.unary_writes, StableHlo.binary_writes, StableHlo.reshape_writes, Finset.mem_singleton]
      repeat' apply And.intro
      all_goals exact StableHlo.devRef_ne_of_ne ‹_›))]

theorem Wend_arg0 (c : Dev nD) : Wend m c (Proc.devRef .tc main_arg0) = m ((c : Thread nD τ).loc main_arg0) :=
  (Wend_of_arg m c main_arg0 (by decide)).trans ((W1_of_ne m c main_arg0 (by decide) (by decide)).trans (V0_arg0 m c))
theorem Wend_arg1 (c : Dev nD) : Wend m c (Proc.devRef .tc main_arg1) = m ((c : Thread nD τ).loc main_arg1) :=
  (Wend_of_arg m c main_arg1 (by decide)).trans ((W1_of_ne m c main_arg1 (by decide) (by decide)).trans (V0_arg1 m c))

/-! ## The run -/

/-- The three buffers the claims read at the end. -/
def readRefs : List (DevRef τ sig) := [Proc.devRef .tc main_v10, Proc.devRef .tc main_arg0, Proc.devRef .tc main_arg1]

theorem readRefs_sub : readRefs.toFinset ⊆ Pipeline.ucRefs τ sig := by decide

omit [FloatOps F] [Named F] in
theorem held_readRefs (c : Dev nD) (Wv : Valuation τ sig (Elt F)) :
    (StableHlo.held (c : Thread nD τ) readRefs.toFinset Wv : sProp 𝕄)
      = iprop((((c : Thread nD τ).loc main_v10) ↦{fullShare} Wv (Proc.devRef .tc main_v10))
          ∗ (((c : Thread nD τ).loc main_arg0) ↦{fullShare} Wv (Proc.devRef .tc main_arg0))
          ∗ (((c : Thread nD τ).loc main_arg1) ↦{fullShare} Wv (Proc.devRef .tc main_arg1))) := by
  unfold StableHlo.held
  exact bigSep_eq_bigSepL_of_eq readRefs rfl (by decide) _

/-- The physical post: the result buffer at what the operations after the region compute from what the region left, and
    both arguments as launched. -/
def QC : PUnit × MemSt nD τ sig (Elt F) → Prop := fun r => ∀ c : Dev nD,
  r.2.mem ((c : Thread nD τ).loc main_v10) = Wend m c (Proc.devRef .tc main_v10)
  ∧ r.2.mem ((c : Thread nD τ).loc main_arg0) = m ((c : Thread nD τ).loc main_arg0)
  ∧ r.2.mem ((c : Thread nD τ).loc main_arg1) = m ((c : Thread nD τ).loc main_arg1)

set_option backward.isDefEq.respectTransparency.types false in
/-- At the compiled mesh, for any float values, from any memory with zero counters: every weakly fair execution of
    @main on the TensorCores terminates, nothing faulting, and every final state has the result buffer at the
    operations' value of the two result columns and both arguments unchanged. -/
theorem run_main : θ_run defs (onTc (τ := τ) (main (F := F))) ⟨m, fun _ => 0, ρ⟩ (QC m) :=
  Pipeline.θ_run_regions_kit (pcfgs (F := F)) adm (dats m) () cellOf_inj EP defs₀ 𝒱₀ Lr lvr m ρ main (segs m)
    (fun c Q => by rw [main_chain c, Pipeline.Seg.run_eq_chain]; exact .rfl)
    (by simp only [Pipeline.Seg.pipes_host, Pipeline.Seg.pipes_region, Pipeline.Seg.pipes_nil]; decide) (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]; · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vl m c) ∗ Rr c))
    (Tₙ := fun c => iprop(StableHlo.held (c : Thread nD τ) (Pipeline.ucRefs τ sig) (Wend m c) ∗ ∃ r, prngReg c r))
    (hch := ⟨fun _ => .rfl, fun _ => .rfl, fun _ => .rfl, fun _ => .rfl, fun c => by
      show iprop(StableHlo.held (c : Thread nD τ) (Pipeline.ucRefs τ sig) (Wend m c) ∗ Rr c) ⊢ _
      iintro ⟨Hh, Hp, HO⟩
      isplitl [Hh Hp]
      · isplitl [Hh] <;> iassumption
      iexact HO⟩)
    (hinit := by
      refine Pipeline.initEach Lr lvr fun c => ?_
      rw [show unscopedBufs c (fun b => m ((c : Thread nD τ).loc b)) = StableHlo.held (c : Thread nD τ) (Pipeline.ucRefs τ sig) (Vl m c) from Pipeline.unscopedBufs_held c (Vl m c)]
      iintro ⟨⟨Hh, -, HO, -, Hp, -⟩, -⟩
      imodintro
      isplitl [Hh]; · iexact Hh
      isplitl [Hp]; · iexists _; iexact Hp
      iexists ∅; iexact HO)
    (QY := fun c s => s.mem ((c : Thread nD τ).loc main_v10) = Wend m c (Proc.devRef .tc main_v10)
      ∧ s.mem ((c : Thread nD τ).loc main_arg0) = m ((c : Thread nD τ).loc main_arg0)
      ∧ s.mem ((c : Thread nD τ).loc main_arg1) = m ((c : Thread nD τ).loc main_arg1))
    (hfin := fun c s' => by
      rw [StableHlo.held_sub_split (c : Thread nD τ) readRefs_sub (Wend m c), held_readRefs]
      iintro ⟨⟨⟨⟨H10, H0, H1⟩, -⟩, -⟩, HSI⟩
      icombine HSI H10 gives %h10
      icombine HSI H0 gives %h0
      icombine HSI H1 gives %h1
      imodintro
      isplitr
      · ipureintro
        exact ⟨Buf.eq_of_forall_mem_univ h10, (Buf.eq_of_forall_mem_univ h0).trans (Wend_arg0 m c), (Buf.eq_of_forall_mem_univ h1).trans (Wend_arg1 m c)⟩
      iexact HSI)
    (hQ := fun _ h => h)

end Cert.KernelIdeal.Hand

end
-- ==== Proof.Spec.lean ====
/-
  The contrastive loss as ONE function of the two argument arrays, over the extended reals.

  For embeddings `x : 4096 × 512` and labels `lab : 4096`, with `s g j = (∑ k, x g k · x j k) · (1/T)` the scaled
  similarity of rows `g` and `j` (`1/T` the exact reciprocal of the temperature's binary value), and `M g = max_j s g j`:
  every entry is shifted by its row's maximum, the diagonal entry replaced by the fill value, and exponentiated,
  `e g j = exp (if g = j then fill else s g j − M g)`; the positives of row `g` are the other rows with the same label;
  a row with a positive contributes `−log ((∑_{j positive} e g j) / (∑_j e g j))` and counts as valid, a row with none
  contributes `0`; the result is the contributions' sum over the number of valid rows (at least one), and `0` when no
  row is valid. Each definition below is one such step, written with the very operations (and the very constant
  patterns) both programs use, so that each program's reading at an index is this function by unfolding.
-/
import Idealize.ShloMosaic.PureOps.Ideal
import Idealize.ShloMosaic.Lib.ValueIdx

noncomputable section

namespace Cert.Spec

open Idealize.ShloMosaic

/-- The reciprocal of the temperature: exactly one over the binary value `9395241 / 2^27` of the divisor. -/
def invTemp : EReal := ((134217728 / 9395241 : ℝ) : EReal)
/-- The value written on the diagonal before the exponential (the pattern of `-1e9`). -/
def fill : EReal := Ideal.ofBits .f32 0xCE6E6B28#32
/-- The patterns of `0.0` and `1.0`. -/
def zero : EReal := Ideal.ofBits .f32 0x00000000#32
def one : EReal := Ideal.ofBits .f32 0x3F800000#32

variable (x : Fin 4096 → Fin 512 → EReal) (lab : Fin 4096 → BitVec 32)

/-- The scaled similarity of rows `g` and `j`. -/
def sim (g j : Fin 4096) : EReal := (∑ k : Fin 512, x g k * x j k) * invTemp
/-- Row `g`'s largest scaled similarity (the diagonal included), from `-∞`. -/
def rowMax (g : Fin 4096) : EReal := (Finset.univ : Finset (Fin 4096)).fold max (⊥ : EReal) (fun j => sim x g j)
/-- The exponential of the shifted similarity, the diagonal entry replaced by the fill value first. -/
def ex (g j : Fin 4096) : EReal := Ideal.exp (if g = j then fill else sim x g j - rowMax x g)
/-- Row `j` is a positive of row `g`: the same label, another row. -/
def pos (g j : Fin 4096) : Bool := decide (lab g = lab j ∧ g ≠ j)
/-- The positives' share and the whole of row `g`'s exponentials. -/
def posSum (g : Fin 4096) : EReal := ∑ j : Fin 4096, if pos lab g j then ex x g j else zero
def allSum (g : Fin 4096) : EReal := ∑ j : Fin 4096, ex x g j
/-- Row `g` has a positive. -/
def hasPos (g : Fin 4096) : Bool := decide (∃ j : Fin 4096, pos lab g j = true)
/-- Row `g`'s contribution: minus the logarithm of the positives' share, `0` for a row with no positive (whose
    numerator is replaced by `1` before the quotient, as both programs do). -/
def loss (g : Fin 4096) : EReal :=
  if hasPos lab g then -(Ideal.log (Ideal.div (if hasPos lab g then posSum x lab g else one) (allSum x g))) else zero
/-- Row `g` counts: `1` with a positive, `0` without. -/
def valid (g : Fin 4096) : EReal := if hasPos lab g then 1 else 0

/-- The last steps, shared by both programs, as one function of the per-row contributions and counts: their sums, the
    quotient by the count (at least one), `0` when the count is not positive. -/
def tail (l v : Fin 4096 → EReal) : EReal :=
  if 0 < (∑ g : Fin 4096, v g) then Ideal.div (∑ g : Fin 4096, l g) (max (∑ g : Fin 4096, v g) one) else zero

/-- The loss. -/
def result : EReal := tail (loss x lab) (valid lab)

end Cert.Spec

end
-- ==== Proof.KIPayloadLib.lean ====
/-
  The operations of the kernel's body that are not pointwise, each read at an index given by coordinates, and the
  constants it uses: a block's row as a row of the whole array; the keepdims column forms of a shape cast and of a
  broadcast; a lane sum and a lane maximum of a 256 × 4096 block read as a sum and a fold of `max` over the 4096 columns;
  the product of a 256 × 512 block with the transposed 4096 × 512 array read as the sum over the 512 common coordinates;
  the reciprocal of the temperature; the patterns of `-∞`, `0.0` and `1.0`; a select on a decided bit.
-/
import proofs.«177116_j84293028151332_1_alg».proof.Proof.Gen.KernelIdeal.Skeleton
import proofs.«177116_j84293028151332_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules

noncomputable section

namespace Cert.KernelIdeal.Payload

open Cert.KernelIdeal Cert.KernelIdeal.Gen Idealize.ShloMosaic Idealize.ShloMosaic.ValueIdx

/-- Row `p` of block `t` is row `256 · t + p` of the whole array. -/
def row (t : Fin 16) (p : Fin 256) : Fin 4096 := ⟨256 * t.val + p.val, by omega⟩

theorem row_val (t : Fin 16) (p : Fin 256) : (row t p).val = 256 * t.val + p.val := rfl

/-! ## Layout: the keepdims column forms -/

/-- An `[a]` array cast to `[a, 1]` reads, at `(i, u)`, the operand at `i`, whatever the unit coordinate `u`. -/
theorem shapeCast_a_a1_apply {α : Type} {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array cast to `[a]` reads, at `i`, the operand at `(i, 0)`. -/
theorem shapeCast_a1_a_apply {α : Type} {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1]` array broadcast to `[a, b]` reads, at `(p, c)`, the operand's one column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The lane reductions of a 256 × 4096 block -/

/-- The index of a 256 × 4096 block that a row's index becomes with the column `j` inserted is `(p, j)`. -/
theorem lift_row (h : S256x4096.Reduces [1] S256) (p : Fin 256) (j : Fin 4096) : h.lift (ix1 p) j = ix2 p j := by
  funext c
  refine Fin.ext ?_
  match c with
  | ⟨0, _⟩ => rfl
  | ⟨1, _⟩ => rfl

/-- A lane sum of a 256 × 4096 block, at row `p`: the sum over the columns. -/
theorem rowSum_apply (src : FVec Ideal S256x4096 .f32) (h : S256x4096.Reduces [1] S256) (hφ : FKind.Formats .f32)
    (hacc : (0x00000000#32 : BitVec 32) = FKind.add.neutral .f32 hφ) (p : Fin 256) :
    multiReduction (F := Ideal) .add [1] S256 src 0x00000000#32 h hφ hacc (ix1 p) = ∑ j : Fin 4096, src (ix2 p j) := by
  refine (Ideal.multiReduction_add_single src 0x00000000#32 h hφ hacc (ix1 p)).trans ?_
  exact Finset.sum_congr rfl fun j _ => congrArg src (lift_row h p j)

/-- The pattern of `-∞`. -/
theorem ofBits_negInf : Ideal.ofBits .f32 0xFF800000#32 = ⊥ := by simp [Ideal.ofBits, Ideal.ieee]

/-- A lane maximum of a 256 × 4096 block, at row `p`: the fold of `max` from `-∞` over the columns. -/
theorem rowMax_apply (src : FVec Ideal S256x4096 .f32) (h : S256x4096.Reduces [1] S256) (hφ : FKind.Formats .f32)
    (hacc : (0xFF800000#32 : BitVec 32) = FKind.maximumf.neutral .f32 hφ) (p : Fin 256) :
    multiReduction (F := Ideal) .maximumf [1] S256 src 0xFF800000#32 h hφ hacc (ix1 p)
      = (Finset.univ : Finset (Fin 4096)).fold max (⊥ : EReal) (fun j => src (ix2 p j)) := by
  refine (Ideal.multiReduction_maximumf_single src 0xFF800000#32 h hφ hacc (ix1 p)).trans ?_
  have e : (src ∘ h.lift (ix1 p)) = fun j : Fin 4096 => src (ix2 p j) :=
    funext fun j => congrArg src (lift_row h p j)
  have b : FloatOps.ofBits (F := Ideal) .f32 0xFF800000#32 = (⊥ : EReal) := ofBits_negInf
  rw [e, b]
  rfl

/-! ## The product with the transposed array -/

theorem lhs_0 (i : S256x4096.Idx) (q : dot_S256x512_S512x4096_S256x4096_1_0_0_1_n_n.contr.Idx) :
    (dot_S256x512_S512x4096_S256x4096_1_0_0_1_n_n.lhsIdx i q 0).val = (i 0).val := by
  unfold DotDims.lhsIdx
  rw [dif_neg (show ¬(0 : Fin S256x512.rank) ∈ dot_S256x512_S512x4096_S256x4096_1_0_0_1_n_n.lhsBatch by decide),
    dif_pos (show (0 : Fin S256x512.rank) ∈ dot_S256x512_S512x4096_S256x4096_1_0_0_1_n_n.lhsNonContracting by decide)]
  rfl
theorem lhs_1 (i : S256x4096.Idx) (q : dot_S256x512_S512x4096_S256x4096_1_0_0_1_n_n.contr.Idx) :
    (dot_S256x512_S512x4096_S256x4096_1_0_0_1_n_n.lhsIdx i q 1).val = (q ⟨0, by decide⟩).val :=
  dot_S256x512_S512x4096_S256x4096_1_0_0_1_n_n.lhsIdx_val_of_single rfl i q
theorem rhs_0 (i : S256x4096.Idx) (q : dot_S256x512_S512x4096_S256x4096_1_0_0_1_n_n.contr.Idx) :
    (dot_S256x512_S512x4096_S256x4096_1_0_0_1_n_n.rhsIdx i q 0).val = (q ⟨0, by decide⟩).val :=
  dot_S256x512_S512x4096_S256x4096_1_0_0_1_n_n.rhsIdx_val_of_single rfl i q
theorem rhs_1 (i : S256x4096.Idx) (q : dot_S256x512_S512x4096_S256x4096_1_0_0_1_n_n.contr.Idx) :
    (dot_S256x512_S512x4096_S256x4096_1_0_0_1_n_n.rhsIdx i q 1).val = (i 1).val := by
  unfold DotDims.rhsIdx
  rw [dif_neg (show ¬(1 : Fin S512x4096.rank) ∈ dot_S256x512_S512x4096_S256x4096_1_0_0_1_n_n.rhsBatch by decide),
    dif_pos (show (1 : Fin S512x4096.rank) ∈ dot_S256x512_S512x4096_S256x4096_1_0_0_1_n_n.rhsNonContracting by decide)]
  rfl

/-- The block's product with a 512 × 4096 array into the zero accumulator, at `(p, j)`: the sum over the 512 common
    coordinates. -/
theorem matmul_zero_apply (v1 : FVec Ideal S256x512 .f32) (v3 : FVec Ideal S512x4096 .f32) (p : Fin 256) (j : Fin 4096) :
    matmul dot_S256x512_S512x4096_S256x4096_1_0_0_1_n_n none v1 v3 (constant (F := Ideal) S256x4096 .f32 0x00000000#32) (ix2 p j)
      = ∑ k : Fin 512, v1 (ix2 p k) * v3 (ix2 k j) := by
  simp only [matmul]
  rw [Ideal.matmul_constant_zero_apply,
    ← Equiv.sum_comp (contrEquiv1 dot_S256x512_S512x4096_S256x4096_1_0_0_1_n_n 512 rfl rfl).symm]
  refine Finset.sum_congr rfl fun k _ => ?_
  have hk := contrEquiv1_symm_val dot_S256x512_S512x4096_S256x4096_1_0_0_1_n_n 512 rfl rfl k
  have el : dot_S256x512_S512x4096_S256x4096_1_0_0_1_n_n.lhsIdx (ix2 p j)
      ((contrEquiv1 dot_S256x512_S512x4096_S256x4096_1_0_0_1_n_n 512 rfl rfl).symm k) = ix2 p k :=
    funext fun a => Fin.ext (by
      match a with
      | ⟨0, _⟩ => exact lhs_0 _ _
      | ⟨1, _⟩ => exact (lhs_1 _ _).trans hk)
  have er : dot_S256x512_S512x4096_S256x4096_1_0_0_1_n_n.rhsIdx (ix2 p j)
      ((contrEquiv1 dot_S256x512_S512x4096_S256x4096_1_0_0_1_n_n 512 rfl rfl).symm k) = ix2 k j :=
    funext fun a => Fin.ext (by
      match a with
      | ⟨0, _⟩ => exact (rhs_0 _ _).trans hk
      | ⟨1, _⟩ => exact rhs_1 _ _)
  rw [el, er]

/-! ## The constants -/

/-- The named constant is the reciprocal of the temperature. -/
theorem invTemp_eq :
    Named.named (F := Ideal) κ "inv_temperature" (φ := .f32) 0x41649249#32 = Cert.Spec.invTemp :=
  IdealRules.named_const.ideal_named_scalar _ _ _ _ rfl

/-- The pattern of `0.0` is `0`. -/
theorem zero_eq : Cert.Spec.zero = 0 := Ideal.ofBits_zero_f32
/-- The pattern of `1.0` is `1`. -/
theorem one_eq : Cert.Spec.one = 1 := by
  unfold Cert.Spec.one
  simp [Ideal.ofBits, Ideal.ieee, -EReal.coe_mul]; norm_num
/-- `0.0 < 1.0`. -/
theorem zero_lt_one_pat : Cert.Spec.zero < Cert.Spec.one := by rw [zero_eq, one_eq]; exact _root_.zero_lt_one

/-! ## Words -/

/-- A select on a decided bit is the `if`. -/
theorem select_ofBool {α : Type} (b : Bool) (x y : α) : Scalar.select (BitVec.ofBool b) x y = if b then x else y := by
  cases b
  · exact select_zero x y
  · exact select_one x y

/-- The diagonal mask of block `t` at `(p, j)`: row `256 · t + p` is column `j`. -/
theorem diag_apply (t : Fin 16) (i : grid0.Coords) (hi : (i 0).val = t.val) (p : Fin 256) (j : Fin 4096) :
    k0_pay3 i (ix2 p j) = BitVec.ofBool (decide (row t p = j)) := by
  unfold k0_pay3
  show IntOp.cmpi .eq (IntOp.addi (Scalar.muli (BitVec.ofNat 32 (i 0).val) 256#32) (BitVec.ofNat 32 (0 * 256 + p.val)))
      (BitVec.ofNat 32 (0 * 4096 + j.val)) = _
  rw [hi]
  have hp := p.isLt; have hj := j.isLt; have ht := t.isLt
  have hL : IntOp.addi (Scalar.muli (BitVec.ofNat 32 t.val) 256#32) (BitVec.ofNat 32 (0 * 256 + p.val))
      = BitVec.ofNat 32 (256 * t.val + p.val) := by
    apply BitVec.eq_of_toNat_eq
    simp only [IntOp.addi, Scalar.muli, IntOp.muli, BitVec.toNat_add, BitVec.toNat_mul, BitVec.toNat_ofNat]
    omega
  rw [hL]
  unfold IntOp.cmpi
  congr 1
  show (BitVec.ofNat 32 (256 * t.val + p.val) == BitVec.ofNat 32 (0 * 4096 + j.val)) = decide (row t p = j)
  rw [Bool.eq_iff_iff, beq_iff_eq, decide_eq_true_iff, BitVec.toNat_eq, BitVec.toNat_ofNat, BitVec.toNat_ofNat, Fin.ext_iff, row_val]
  omega

/-- The positives' mask of block `t` at `(p, j)`: column `j` has row `256 · t + p`'s label and is another row. -/
theorem mask_apply (t : Fin 16) (lab : Fin 4096 → BitVec 32) (i : grid0.Coords) (hi : (i 0).val = t.val)
    (v19 : Vec Ideal S256x1 .i32) (v21 : Vec Ideal S1x4096 .i32)
    (h19 : ∀ p : Fin 256, v19 (ix2 p (0 : Fin 1)) = lab (row t p))
    (h21 : ∀ j : Fin 4096, v21 (ix2 (0 : Fin 1) j) = lab j) (p : Fin 256) (j : Fin 4096) :
    k0_pay5 (F := Ideal) i v19 v21 (ix2 p j) = BitVec.ofBool (Cert.Spec.pos lab (row t p) j) := by
  unfold k0_pay5
  show IntOp.andi (IntOp.cmpi .eq
      (broadcastTo S256x4096 (shapeCast S256x1 v19 shapeCasts_S256x1_S256x1) broadcasts_S256x1_S256x4096 (ix2 p j))
      (broadcastTo S256x4096 (shapeCast S1x4096 v21 shapeCasts_S1x4096_S1x4096) broadcasts_S1x4096_S256x4096 (ix2 p j)))
    (IntOp.xori (k0_pay3 i (ix2 p j)) 1#1) = _
  rw [shapeCast_self, shapeCast_self, broadcastTo_a1_ab_apply, broadcastTo_1b_ab_apply, h19, h21, diag_apply t i hi]
  unfold Cert.Spec.pos IntOp.cmpi IntOp.andi IntOp.xori
  by_cases h1 : lab (row t p) = lab j
  · by_cases h2 : row t p = j <;> simp [h1, h2]
  · have hb : (lab (row t p) == lab j) = false := beq_eq_false_iff_ne.mpr h1
    by_cases h2 : row t p = j <;> simp [h1, h2, hb]

end Cert.KernelIdeal.Payload

end
-- ==== Proof.KIPayloadExp.lean ====
/-
  The exponentials of block `t`: the kernel's array of `exp` of the shifted, diagonal-filled scaled similarities, read at
  `(p, j)`, is the specification's `ex` at row `256 · t + p` and column `j`.
-/
import proofs.«177116_j84293028151332_1_alg».proof.Proof.KIPayloadLib

noncomputable section

namespace Cert.KernelIdeal.Payload

open Cert.KernelIdeal Cert.KernelIdeal.Gen Idealize.ShloMosaic Idealize.ShloMosaic.ValueIdx

/-- The block's scaled similarities: its product with the transposed array, times the reciprocal of the temperature. -/
def scaled (v1 : FVec Ideal S256x512 .f32) (v2 : FVec Ideal S4096x512 .f32) : FVec Ideal S256x4096 .f32 :=
  mulf (matmul dot_S256x512_S512x4096_S256x4096_1_0_0_1_n_n none v1
      (transpose S512x4096 [1, 0] v2 transposes_S4096x512_p1_0_S512x4096) (constant (F := Ideal) S256x4096 .f32 0x00000000#32))
    (broadcast S256x4096 (Named.named (F := Ideal) κ "inv_temperature" (φ := .f32) 0x41649249#32))

/-- At `(p, j)` it is the scaled similarity of rows `256 · t + p` and `j`. -/
theorem scaled_apply (t : Fin 16) (x : Fin 4096 → Fin 512 → EReal)
    (v1 : FVec Ideal S256x512 .f32) (v2 : FVec Ideal S4096x512 .f32)
    (h1 : ∀ (p : Fin 256) (k : Fin 512), v1 (ix2 p k) = x (row t p) k)
    (h2 : ∀ (j : Fin 4096) (k : Fin 512), v2 (ix2 j k) = x j k) (p : Fin 256) (j : Fin 4096) :
    scaled v1 v2 (ix2 p j) = Cert.Spec.sim x (row t p) j := by
  unfold scaled Cert.Spec.sim
  rw [mulf_apply, broadcast_apply, invTemp_eq]
  refine congrArg (· * Cert.Spec.invTemp) ?_
  refine (matmul_zero_apply v1 _ p j).trans ?_
  refine Finset.sum_congr rfl fun k _ => ?_
  rw [transpose_ix2_apply, h1, h2]

/-- The payload is `exp` of: the fill value on the diagonal, the scaled similarities less their row's maximum off it. -/
theorem pay4_eq (i : grid0.Coords) (v1 : FVec Ideal S256x512 .f32) (v2 : FVec Ideal S4096x512 .f32) :
    k0_pay4 (F := Ideal) i v1 v2
      = exp (select (k0_pay3 i) (broadcast S256x4096 (Scalar.ofBits (F := Ideal) .f32 0xCE6E6B28#32))
          (subf (scaled v1 v2) (broadcastTo S256x4096 (shapeCast S256x1
            (multiReduction (F := Ideal) .maximumf [1] S256 (scaled v1 v2) 0xFF800000#32 reduces_S256x4096_S256 (.inl rfl) rfl)
            shapeCasts_S256_S256x1) broadcasts_S256x1_S256x4096))) := rfl

/-- A row's maximum in the block is the row's maximum in the specification. -/
theorem rowMax_eq (t : Fin 16) (x : Fin 4096 → Fin 512 → EReal)
    (v1 : FVec Ideal S256x512 .f32) (v2 : FVec Ideal S4096x512 .f32)
    (h1 : ∀ (p : Fin 256) (k : Fin 512), v1 (ix2 p k) = x (row t p) k)
    (h2 : ∀ (j : Fin 4096) (k : Fin 512), v2 (ix2 j k) = x j k) (p : Fin 256) (j : Fin 4096)
    (h : S256x4096.Reduces [1] S256) (hφ : FKind.Formats .f32)
    (hacc : (0xFF800000#32 : BitVec 32) = FKind.maximumf.neutral .f32 hφ)
    (hc : S256.ShapeCasts S256x1) (hb : S256x1.Broadcasts S256x4096) :
    broadcastTo S256x4096 (shapeCast S256x1
        (multiReduction (F := Ideal) .maximumf [1] S256 (scaled v1 v2) 0xFF800000#32 h hφ hacc) hc) hb (ix2 p j)
      = Cert.Spec.rowMax x (row t p) := by
  refine (broadcastTo_a1_ab_apply _ hb p j).trans ?_
  refine (shapeCast_a_a1_apply _ hc p (0 : Fin 1)).trans ?_
  refine (rowMax_apply (scaled v1 v2) h hφ hacc p).trans ?_
  unfold Cert.Spec.rowMax
  exact congrArg (fun f => (Finset.univ : Finset (Fin 4096)).fold max (⊥ : EReal) f)
    (funext fun j' => scaled_apply t x v1 v2 h1 h2 p j')

/-- The exponentials at `(p, j)`. -/
theorem pay4_apply (t : Fin 16) (x : Fin 4096 → Fin 512 → EReal) (i : grid0.Coords) (hi : (i 0).val = t.val)
    (v1 : FVec Ideal S256x512 .f32) (v2 : FVec Ideal S4096x512 .f32)
    (h1 : ∀ (p : Fin 256) (k : Fin 512), v1 (ix2 p k) = x (row t p) k)
    (h2 : ∀ (j : Fin 4096) (k : Fin 512), v2 (ix2 j k) = x j k) (p : Fin 256) (j : Fin 4096) :
    k0_pay4 (F := Ideal) i v1 v2 (ix2 p j) = Cert.Spec.ex x (row t p) j := by
  rw [pay4_eq]
  show Ideal.exp (Scalar.select (k0_pay3 i (ix2 p j)) (Ideal.ofBits .f32 0xCE6E6B28#32)
    (scaled v1 v2 (ix2 p j) - broadcastTo S256x4096 (shapeCast S256x1
      (multiReduction (F := Ideal) .maximumf [1] S256 (scaled v1 v2) 0xFF800000#32 reduces_S256x4096_S256 (.inl rfl) rfl)
      shapeCasts_S256_S256x1) broadcasts_S256x1_S256x4096 (ix2 p j))) = _
  have hm := rowMax_eq t x v1 v2 h1 h2 p j reduces_S256x4096_S256 (.inl rfl) rfl shapeCasts_S256_S256x1
    broadcasts_S256x1_S256x4096
  rw [hm, scaled_apply t x v1 v2 h1 h2 p j, diag_apply t i hi p j, select_ofBool]
  unfold Cert.Spec.ex Cert.Spec.fill
  by_cases hd : row t p = j <;> simp [hd]

end Cert.KernelIdeal.Payload

end
-- ==== Proof.KIPayload.lean ====
/-
  One row of a block: the kernel's per-row results — the positives' sum, the whole sum and "has a positive" of row `p` of
  block `t`, then the row's contribution and its count — are the specification's at row `256 · t + p`.
-/
import proofs.«177116_j84293028151332_1_alg».proof.Proof.KIPayloadExp

noncomputable section

namespace Cert.KernelIdeal.Payload

open Cert.KernelIdeal Cert.KernelIdeal.Gen Idealize.ShloMosaic Idealize.ShloMosaic.ValueIdx

/-- The whole sum of row `p`'s exponentials. -/
theorem pay7_apply (t : Fin 16) (x : Fin 4096 → Fin 512 → EReal) (i : grid0.Coords) (hi : (i 0).val = t.val)
    (v1 : FVec Ideal S256x512 .f32) (v2 : FVec Ideal S4096x512 .f32)
    (h1 : ∀ (p : Fin 256) (k : Fin 512), v1 (ix2 p k) = x (row t p) k)
    (h2 : ∀ (j : Fin 4096) (k : Fin 512), v2 (ix2 j k) = x j k) (p : Fin 256) :
    k0_pay7 (F := Ideal) i v1 v2 (ix1 p) = Cert.Spec.allSum x (row t p) := by
  unfold k0_pay7
  refine (rowSum_apply (k0_pay4 (F := Ideal) i v1 v2) reduces_S256x4096_S256 (.inl rfl) rfl p).trans ?_
  unfold Cert.Spec.allSum
  exact Finset.sum_congr rfl fun j _ => pay4_apply t x i hi v1 v2 h1 h2 p j

/-- The sum of row `p`'s exponentials over its positives. -/
theorem pay6_apply (t : Fin 16) (x : Fin 4096 → Fin 512 → EReal) (lab : Fin 4096 → BitVec 32)
    (i : grid0.Coords) (hi : (i 0).val = t.val)
    (v1 : FVec Ideal S256x512 .f32) (v2 : FVec Ideal S4096x512 .f32) (v19 : Vec Ideal S256x1 .i32) (v21 : Vec Ideal S1x4096 .i32)
    (h1 : ∀ (p : Fin 256) (k : Fin 512), v1 (ix2 p k) = x (row t p) k)
    (h2 : ∀ (j : Fin 4096) (k : Fin 512), v2 (ix2 j k) = x j k)
    (h19 : ∀ p : Fin 256, v19 (ix2 p (0 : Fin 1)) = lab (row t p))
    (h21 : ∀ j : Fin 4096, v21 (ix2 (0 : Fin 1) j) = lab j) (p : Fin 256) :
    k0_pay6 (F := Ideal) i v1 v2 v19 v21 (ix1 p) = Cert.Spec.posSum x lab (row t p) := by
  unfold k0_pay6
  refine (rowSum_apply (select (k0_pay5 (F := Ideal) i v19 v21) (k0_pay4 (F := Ideal) i v1 v2)
    (broadcast S256x4096 (Scalar.ofBits (F := Ideal) .f32 0x00000000#32))) reduces_S256x4096_S256 (.inl rfl) rfl p).trans ?_
  unfold Cert.Spec.posSum
  refine Finset.sum_congr rfl fun j _ => ?_
  rw [select_apply, broadcast_apply, mask_apply t lab i hi v19 v21 h19 h21 p j, pay4_apply t x i hi v1 v2 h1 h2 p j,
    select_ofBool]
  rfl

/-- The block's "column `j` is a positive of row `p`" as `1.0` or `0.0`. -/
theorem ind_apply (t : Fin 16) (lab : Fin 4096 → BitVec 32) (i : grid0.Coords) (hi : (i 0).val = t.val)
    (v19 : Vec Ideal S256x1 .i32) (v21 : Vec Ideal S1x4096 .i32)
    (h19 : ∀ p : Fin 256, v19 (ix2 p (0 : Fin 1)) = lab (row t p))
    (h21 : ∀ j : Fin 4096, v21 (ix2 (0 : Fin 1) j) = lab j) (p : Fin 256) (j : Fin 4096) :
    select (k0_pay5 (F := Ideal) i v19 v21) (broadcast S256x4096 (Scalar.ofBits (F := Ideal) .f32 0x3F800000#32))
        (broadcast S256x4096 (Scalar.ofBits (F := Ideal) .f32 0x00000000#32)) (ix2 p j)
      = if Cert.Spec.pos lab (row t p) j then Cert.Spec.one else Cert.Spec.zero := by
  rw [select_apply, broadcast_apply, broadcast_apply, mask_apply t lab i hi v19 v21 h19 h21 p j, select_ofBool]
  rfl

/-- Row `p` has a positive. -/
theorem pay8_apply (t : Fin 16) (lab : Fin 4096 → BitVec 32) (i : grid0.Coords) (hi : (i 0).val = t.val)
    (v19 : Vec Ideal S256x1 .i32) (v21 : Vec Ideal S1x4096 .i32)
    (h19 : ∀ p : Fin 256, v19 (ix2 p (0 : Fin 1)) = lab (row t p))
    (h21 : ∀ j : Fin 4096, v21 (ix2 (0 : Fin 1) j) = lab j) (p : Fin 256) :
    k0_pay8 (F := Ideal) i v19 v21 (ix1 p) = BitVec.ofBool (Cert.Spec.hasPos lab (row t p)) := by
  have he : k0_pay8 (F := Ideal) i v19 v21
      = cmpf .ogt (multiReduction (F := Ideal) .maximumf [1] S256 (select (k0_pay5 (F := Ideal) i v19 v21)
          (broadcast S256x4096 (Scalar.ofBits (F := Ideal) .f32 0x3F800000#32))
          (broadcast S256x4096 (Scalar.ofBits (F := Ideal) .f32 0x00000000#32))) 0xFF800000#32 reduces_S256x4096_S256 (.inl rfl) rfl)
        (broadcast S256 (Scalar.ofBits (F := Ideal) .f32 0x00000000#32)) := rfl
  rw [he, cmpf_apply, Ideal.cmpf_def, broadcast_apply]
  have hm := rowMax_apply (select (k0_pay5 (F := Ideal) i v19 v21)
    (broadcast S256x4096 (Scalar.ofBits (F := Ideal) .f32 0x3F800000#32))
    (broadcast S256x4096 (Scalar.ofBits (F := Ideal) .f32 0x00000000#32))) reduces_S256x4096_S256 (.inl rfl) rfl p
  rw [hm]
  have hf : (fun j : Fin 4096 => select (k0_pay5 (F := Ideal) i v19 v21)
      (broadcast S256x4096 (Scalar.ofBits (F := Ideal) .f32 0x3F800000#32))
      (broadcast S256x4096 (Scalar.ofBits (F := Ideal) .f32 0x00000000#32)) (ix2 p j))
      = fun j => if Cert.Spec.pos lab (row t p) j then Cert.Spec.one else Cert.Spec.zero :=
    funext fun j => ind_apply t lab i hi v19 v21 h19 h21 p j
  rw [hf]
  show BitVec.ofBool (decide (Cert.Spec.zero < _)) = _
  unfold Cert.Spec.hasPos
  refine congrArg BitVec.ofBool (decide_eq_decide.mpr ?_)
  rw [Finset.lt_fold_max]
  constructor
  · rintro (h | ⟨j, _, hj⟩)
    · exact absurd h not_lt_bot
    · refine ⟨j, ?_⟩
      by_contra hn
      rw [if_neg hn] at hj
      exact lt_irrefl _ hj
  · rintro ⟨j, hj⟩
    refine Or.inr ⟨j, Finset.mem_univ _, ?_⟩
    rw [if_pos hj]
    exact zero_lt_one_pat

/-- The row's contribution, from its three per-row values. -/
theorem pay1_apply (v30 v31 : FVec Ideal S256 .f32) (v37 : IVec S256 1) (p : Fin 256) :
    k0_pay1 (F := Ideal) v30 v31 v37 (ix2 p (0 : Fin 1))
      = Scalar.select (v37 (ix1 p))
          (Ideal.ofBits .f32 0x00000000#32 - Ideal.log (Ideal.div
            (Scalar.select (v37 (ix1 p)) (v30 (ix1 p)) (Ideal.ofBits .f32 0x3F800000#32)) (v31 (ix1 p))))
          (Ideal.ofBits .f32 0x00000000#32) := by
  unfold k0_pay1
  exact shapeCast_a_a1_apply _ _ p (0 : Fin 1)

/-- The row's count, from "has a positive". -/
theorem pay2_apply (v37 : IVec S256 1) (p : Fin 256) :
    k0_pay2 (F := Ideal) v37 (ix2 p (0 : Fin 1)) = ((((v37 (ix1 p)).setWidth 32).toInt : ℝ) : EReal) := by
  unfold k0_pay2
  exact shapeCast_a_a1_apply _ _ p (0 : Fin 1)

/-- THE ROW'S CONTRIBUTION: row `p` of block `t` contributes the specification's loss of row `256 · t + p`. -/
theorem loss_row (t : Fin 16) (x : Fin 4096 → Fin 512 → EReal) (lab : Fin 4096 → BitVec 32)
    (i : grid0.Coords) (hi : (i 0).val = t.val)
    (v1 : Vec Ideal S256x512 .f32) (v2 : Vec Ideal S4096x512 .f32) (v19 : Vec Ideal S256x1 .i32) (v21 : Vec Ideal S1x4096 .i32)
    (h1 : ∀ (p : Fin 256) (k : Fin 512), v1 (ix2 p k) = x (row t p) k)
    (h2 : ∀ (j : Fin 4096) (k : Fin 512), v2 (ix2 j k) = x j k)
    (h19 : ∀ p : Fin 256, v19 (ix2 p (0 : Fin 1)) = lab (row t p))
    (h21 : ∀ j : Fin 4096, v21 (ix2 (0 : Fin 1) j) = lab j) (p : Fin 256) :
    k0_pay1 (F := Ideal) (k0_pay6 i v1 v2 v19 v21) (k0_pay7 i v1 v2) (k0_pay8 i v19 v21) (ix2 p (0 : Fin 1))
      = Cert.Spec.loss x lab (row t p) := by
  rw [pay1_apply, pay8_apply t lab i hi v19 v21 h19 h21 p, pay6_apply t x lab i hi v1 v2 v19 v21 h1 h2 h19 h21 p,
    pay7_apply t x i hi v1 v2 h1 h2 p, select_ofBool, select_ofBool, Ideal.ofBits_zero_f32, zero_sub]
  unfold Cert.Spec.loss
  rw [zero_eq]
  rfl

/-- THE ROW'S COUNT: row `p` of block `t` counts as the specification's row `256 · t + p` does. -/
theorem valid_row (t : Fin 16) (lab : Fin 4096 → BitVec 32) (i : grid0.Coords) (hi : (i 0).val = t.val)
    (v19 : Vec Ideal S256x1 .i32) (v21 : Vec Ideal S1x4096 .i32)
    (h19 : ∀ p : Fin 256, v19 (ix2 p (0 : Fin 1)) = lab (row t p))
    (h21 : ∀ j : Fin 4096, v21 (ix2 (0 : Fin 1) j) = lab j) (p : Fin 256) :
    k0_pay2 (F := Ideal) (k0_pay8 (F := Ideal) i v19 v21) (ix2 p (0 : Fin 1)) = Cert.Spec.valid lab (row t p) := by
  rw [pay2_apply, pay8_apply t lab i hi v19 v21 h19 h21 p]
  unfold Cert.Spec.valid
  cases Cert.Spec.hasPos lab (row t p)
  · simp
  · simp

end Cert.KernelIdeal.Payload

end
-- ==== Proof.KITail.lean ====
/-
  The last steps, after the blocks: the two per-row columns are flattened and summed, the contributions' sum is divided by
  the count (at least one), and the result is `0` when the count is not positive — the specification's `tail` of the two
  columns.
-/
import proofs.«177116_j84293028151332_1_alg».proof.Proof.Gen.KernelIdeal.Launch
import proofs.«177116_j84293028151332_1_alg».proof.Proof.KIPayloadLib

noncomputable section

namespace Cert.KernelIdeal.Payload

open Cert.KernelIdeal Cert.KernelIdeal.Gen Idealize.ShloMosaic Idealize.ShloMosaic.ValueIdx

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- The sum from `0.0` of a flattened `4096 × 1` column is the sum of its entries. -/
theorem hostSum_apply (w : FVec Ideal S4096x1 .f32) (hc : S4096x1.ShapeCasts S4096) (hr : S4096.ReducesTo [0] S_)
    (hu : 0 < S_.numel) (i : S_.Idx) :
    Host.reduceAdd (F := Ideal) (shapeCast S4096 w hc) (constant (F := Ideal) S_ .f32 0x00000000#32) hr hu i
      = ∑ g : Fin 4096, w (ix2 g (0 : Fin 1)) := by
  show Ideal.hostReduceAdd hr (shapeCast S4096 w hc) (Ideal.ofBits .f32 0x00000000#32) i = _
  rw [Ideal.hostReduceAdd_total hr (fun b => b.elim0), Ideal.ofBits_zero_f32, zero_add,
    ← Equiv.sum_comp (idxEquiv1 (n := 4096)).symm]
  refine Finset.sum_congr rfl fun g _ => ?_
  show shapeCast S4096 w hc (ix1 g) = _
  exact shapeCast_a1_a_apply w hc g

/-- THE LAST STEPS are the specification's `tail` of the two columns. -/
theorem tail_eq (l v : FVec Ideal S4096x1 .f32) (i : S_.Idx) :
    select (cmpf (F := Ideal) .ogt (Host.reduceAdd (F := Ideal) (shapeCast S4096 v shapeCasts_S4096x1_S4096) (constant (F := Ideal) S_ .f32 0x00000000#32) reducesTo_S4096_S_d0 h_S_) (constant (F := Ideal) S_ .f32 0x00000000#32))
           (Host.divf (F := Ideal) (Host.reduceAdd (F := Ideal) (shapeCast S4096 l shapeCasts_S4096x1_S4096) (constant (F := Ideal) S_ .f32 0x00000000#32) reducesTo_S4096_S_d0 h_S_) (maximumf (Host.reduceAdd (F := Ideal) (shapeCast S4096 v shapeCasts_S4096x1_S4096) (constant (F := Ideal) S_ .f32 0x00000000#32) reducesTo_S4096_S_d0 h_S_) (constant (F := Ideal) S_ .f32 0x3F800000#32)))
           (id (constant (F := Ideal) S_ .f32 0x00000000#32)) i
      = Cert.Spec.tail (fun g => l (ix2 g (0 : Fin 1))) (fun g => v (ix2 g (0 : Fin 1))) := by
  have hv := hostSum_apply v shapeCasts_S4096x1_S4096 reducesTo_S4096_S_d0 h_S_ i
  have hl := hostSum_apply l shapeCasts_S4096x1_S4096 reducesTo_S4096_S_d0 h_S_ i
  show Scalar.select (Ideal.cmp .ogt
      (Host.reduceAdd (F := Ideal) (shapeCast S4096 v shapeCasts_S4096x1_S4096) (constant (F := Ideal) S_ .f32 0x00000000#32) reducesTo_S4096_S_d0 h_S_ i)
      (Ideal.ofBits .f32 0x00000000#32))
    (Ideal.div
      (Host.reduceAdd (F := Ideal) (shapeCast S4096 l shapeCasts_S4096x1_S4096) (constant (F := Ideal) S_ .f32 0x00000000#32) reducesTo_S4096_S_d0 h_S_ i)
      (max (Host.reduceAdd (F := Ideal) (shapeCast S4096 v shapeCasts_S4096x1_S4096) (constant (F := Ideal) S_ .f32 0x00000000#32) reducesTo_S4096_S_d0 h_S_ i)
        (Ideal.ofBits .f32 0x3F800000#32)))
    (Ideal.ofBits .f32 0x00000000#32) = _
  rw [hv, hl]
  show Scalar.select (BitVec.ofBool (decide (Ideal.ofBits .f32 0x00000000#32 < _))) _ _ = _
  rw [select_ofBool, Ideal.ofBits_zero_f32]
  unfold Cert.Spec.tail
  rw [zero_eq]
  simp only [decide_eq_true_eq]
  rfl

end Cert.KernelIdeal.Payload

end
-- ==== Proof.KIValue.lean ====
/-
  The contrastive kernel's result as the specification's function of the two argument arrays.

  Grid point `t` reads the block of embedding rows `256·t … 256·t + 255`, the whole embedding array, the block's
  labels and all labels, and writes back, at row `p` of its two result blocks, the specification's contribution and
  count of row `256·t + p`. The sixteen blocks tile the two result columns, so after the region the columns hold the
  contribution and the count of every row; the operations after the region are the specification's last steps.
-/
import proofs.«177116_j84293028151332_1_alg».proof.Proof.KIRun
import proofs.«177116_j84293028151332_1_alg».proof.Proof.KIPayload
import proofs.«177116_j84293028151332_1_alg».proof.Proof.KITail
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Hand

open Cert.KernelIdeal Cert.KernelIdeal.Gen Cert.KernelIdeal.Payload
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-! ## The argument arrays as plain functions -/

/-- The embeddings on core `c`, by row and column. -/
def xA (c : Dev nD) : Fin 4096 → Fin 512 → EReal := fun g k => m ((c : Thread nD τ).loc main_arg0) (ix2 g k)
/-- The labels on core `c`. -/
def labA (c : Dev nD) : Fin 4096 → BitVec 32 := fun g => m ((c : Thread nD τ).loc main_arg1) (ix1 g)

/-- The grid has sixteen points. -/
abbrev pt (t : Fin cfg0.N) : Fin 16 := Fin.cast N_0 t

/-! ## The arrays the region finds, read at an index -/

theorem V_arg0_apply (c : Dev nD) (g : Fin 4096) (k : Fin 512) : V m c main_arg0 (ix2 g k) = xA m c g k := by
  rw [show V m c main_arg0 = m ((c : Thread nD τ).loc main_arg0) from V0_arg0 m c]; rfl

/-- The labels as a column: the reshape of the labels' array. -/
theorem V_v0_apply (c : Dev nD) (g : Fin 4096) : V m c main_v0 (ix2 g (0 : Fin 1)) = labA m c g := by
  have e : (V m c main_v0 : S4096x1.Idx → BitVec 32) = shapeCast S4096x1 (m ((c : Thread nD τ).loc main_arg1)) shapeCasts_S4096_S4096x1 := by
    dsimp only [V, V0, hostOps0]; after_results; rfl
  rw [e]
  exact shapeCast_a_a1_apply _ _ g 0

/-- The labels as a row. -/
theorem V_v1_apply (c : Dev nD) (j : Fin 4096) : V m c main_v1 (ix2 (0 : Fin 1) j) = labA m c j := by
  have e : (V m c main_v1 : S1x4096.Idx → BitVec 32) = shapeCast S1x4096 (m ((c : Thread nD τ).loc main_arg1)) shapeCasts_S4096_S1x4096 := by
    dsimp only [V, V0, hostOps0]; after_results; rfl
  rw [e]
  exact shapeCast_a_1a_apply _ _ 0 j

/-! ## The windows' blocks, read at an index -/

/-- The printed index maps, decided once over the grid: the block windows move with the point along the rows, the
    whole-array windows stay. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ ((grid0.coords t) 0).val = t.val :=
  (by decide +kernel : ∀ t : Fin grid0.N, _)

/-- Row `p` of the block of embedding rows at point `t` is row `256·t + p` of the array. -/
theorem iblk0_apply (c : Dev nD) (t : Fin cfg0.N) (p : Fin 256) (k : Fin 512) :
    iblk m c 0 t (ix2 p k) = xA m c (row (pt t) p) k := by
  obtain ⟨e0, e1, -⟩ := idx_facts t
  rw [← V_arg0_apply]
  show V m c main_arg0 (((cfg0.win 0).blk t).view.emb (ix2 p k)) = V m c main_arg0 (ix2 (row (pt t) p) k)
  refine congrArg _ ?_
  funext a; apply Fin.ext
  match a with
  | ⟨0, _⟩ => show win0_0.index t (0 : Fin 2) * 256 + 1 * p.val = 256 * t.val + p.val; omega
  | ⟨1, _⟩ => show win0_0.index t (1 : Fin 2) * 512 + 1 * k.val = k.val; omega

/-- The whole-array window's block is the array. -/
theorem iblk1_apply (c : Dev nD) (t : Fin cfg0.N) (j : Fin 4096) (k : Fin 512) :
    iblk m c 1 t (ix2 j k) = xA m c j k := by
  obtain ⟨-, -, e0, e1, -⟩ := idx_facts t
  rw [← V_arg0_apply]
  show V m c main_arg0 (((cfg0.win 1).blk t).view.emb (ix2 j k)) = V m c main_arg0 (ix2 j k)
  refine congrArg _ ?_
  funext a; apply Fin.ext
  match a with
  | ⟨0, _⟩ => show win0_1.index t (0 : Fin 2) * 4096 + 1 * j.val = j.val; omega
  | ⟨1, _⟩ => show win0_1.index t (1 : Fin 2) * 512 + 1 * k.val = k.val; omega

/-- Entry `p` of the block of labels at point `t` is the label of row `256·t + p`. -/
theorem iblk2_apply (c : Dev nD) (t : Fin cfg0.N) (p : Fin 256) :
    iblk m c 2 t (ix2 p (0 : Fin 1)) = labA m c (row (pt t) p) := by
  obtain ⟨-, -, -, -, e0, e1, -⟩ := idx_facts t
  rw [← V_v0_apply]
  show V m c main_v0 (((cfg0.win 2).blk t).view.emb (ix2 p (0 : Fin 1))) = V m c main_v0 (ix2 (row (pt t) p) (0 : Fin 1))
  refine congrArg _ ?_
  funext a; apply Fin.ext
  match a with
  | ⟨0, _⟩ => show win0_2.index t (0 : Fin 2) * 256 + 1 * p.val = 256 * t.val + p.val; omega
  | ⟨1, _⟩ => show win0_2.index t (1 : Fin 2) * 1 + 1 * 0 = 0; omega

/-- The row of all labels. -/
theorem iblk3_apply (c : Dev nD) (t : Fin cfg0.N) (j : Fin 4096) :
    iblk m c 3 t (ix2 (0 : Fin 1) j) = labA m c j := by
  obtain ⟨-, -, -, -, -, -, e0, e1, -⟩ := idx_facts t
  rw [← V_v1_apply]
  show V m c main_v1 (((cfg0.win 3).blk t).view.emb (ix2 (0 : Fin 1) j)) = V m c main_v1 (ix2 (0 : Fin 1) j)
  refine congrArg _ ?_
  funext a; apply Fin.ext
  match a with
  | ⟨0, _⟩ => show win0_3.index t (0 : Fin 2) * 1 + 1 * 0 = 0; omega
  | ⟨1, _⟩ => show win0_3.index t (1 : Fin 2) * 4096 + 1 * j.val = j.val; omega

/-! ## What each point writes back, and the columns after the region -/

theorem hz : (![0, 0] : Fin 2 → Nat) = fun _ => 0 := funext fun a => by fin_cases a <;> rfl

/-- The row of an index of a result column. -/
def rowOf (i : S4096x1.Idx) : Fin 4096 := ⟨(i 0).val, idx2_lt0 i⟩

/-- The contributions' column as one function of the argument arrays: row `g` holds the specification's contribution of row `g`. -/
def G4 (c : Dev nD) (i : S4096x1.Idx) : EReal := Cert.Spec.loss (xA m c) (labA m c) (rowOf i)
/-- The counts' column likewise. -/
def G5 (c : Dev nD) (i : S4096x1.Idx) : EReal := Cert.Spec.valid (labA m c) (rowOf i)

/-- Entry `j` of point `t`'s block of a result column sits at row `256·t + j`. -/
theorem rowOf_emb4 (t : Fin cfg0.N) (j : ((win0 4).xblock (grid0.coords t)).Idx) (hj0 : (j 0).val < 256) :
    rowOf (((win0 4).blk t).view.emb j) = row (pt t) ⟨(j 0).val, hj0⟩ := by
  obtain ⟨-, -, -, -, -, -, -, -, e0, e1, -⟩ := idx_facts t
  apply Fin.ext
  show win0_4.index t (0 : Fin 2) * 256 + 1 * (j 0).val = 256 * t.val + (j 0).val
  omega
theorem rowOf_emb5 (t : Fin cfg0.N) (j : ((win0 5).xblock (grid0.coords t)).Idx) (hj0 : (j 0).val < 256) :
    rowOf (((win0 5).blk t).view.emb j) = row (pt t) ⟨(j 0).val, hj0⟩ := by
  obtain ⟨-, -, -, -, -, -, -, -, -, -, e0, e1, -⟩ := idx_facts t
  apply Fin.ext
  show win0_5.index t (0 : Fin 2) * 256 + 1 * (j 0).val = 256 * t.val + (j 0).val
  omega

/-- WHAT POINT `t` WRITES BACK to the contributions' column is block `t` of that function. -/
theorem flushed4_eq (c : Dev nD) (t : Fin cfg0.N) :
    (dats m 0 c).flushed 4 t = ((cfg0.win 4).blk t).view.read (Elt Ideal) (G4 m c) := by
  show (cfg0.win 4).cut (grid0.coords t) ((dats m 0 c).after 4 t) = _
  rw [after0_4]
  unfold out0_4
  rw [View.canon_unit_zero hz]
  simp only [View.ld_unit_zero (S := S256x512) hz, View.ld_unit_zero (S := S4096x512) hz, View.ld_unit_zero (S := S256x1) hz,
    View.ld_unit_zero (S := S1x4096) hz]
  obtain ⟨-, -, -, -, -, -, -, -, e0, e1, -, -, hc⟩ := idx_facts t
  funext j
  have hj0 : (j 0).val < 256 := Nat.lt_of_lt_of_le (j 0).isLt ((cfg0.win 4).xsize_le (grid0.coords t) 0)
  have hj1 : (j 1).val < 1 := Nat.lt_of_lt_of_le (j 1).isLt ((cfg0.win 4).xsize_le (grid0.coords t) 1)
  have hx : (win0 4).xinj (grid0.coords t) j = ix2 (⟨(j 0).val, hj0⟩ : Fin 256) (0 : Fin 1) := by
    funext a; apply Fin.ext
    match a with
    | ⟨0, _⟩ => rfl
    | ⟨1, _⟩ => show (j 1).val = 0; omega
  have hcut : ∀ (X : (win0 4).block.Idx → EReal), (win0 4).cut (grid0.coords t) X j = X ((win0 4).xinj (grid0.coords t) j) := fun _ => rfl
  rw [View.read_apply, hcut, hx]
  refine (loss_row (pt t) (xA m c) (labA m c) (grid0.coords t) hc (iblk m c 0 t) (iblk m c 1 t) (iblk m c 2 t) (iblk m c 3 t)
    (iblk0_apply m c t) (iblk1_apply m c t) (iblk2_apply m c t) (iblk3_apply m c t) ⟨(j 0).val, hj0⟩).trans ?_
  unfold G4
  rw [rowOf_emb4 t j hj0]
  exact (cast_eq _ _).symm

/-- And to the counts' column. -/
theorem flushed5_eq (c : Dev nD) (t : Fin cfg0.N) :
    (dats m 0 c).flushed 5 t = ((cfg0.win 5).blk t).view.read (Elt Ideal) (G5 m c) := by
  show (cfg0.win 5).cut (grid0.coords t) ((dats m 0 c).after 5 t) = _
  rw [after0_5]
  unfold out0_5
  rw [View.canon_unit_zero hz]
  simp only [View.ld_unit_zero (S := S256x1) hz, View.ld_unit_zero (S := S1x4096) hz]
  obtain ⟨-, -, -, -, -, -, -, -, -, -, e0, e1, hc⟩ := idx_facts t
  funext j
  have hj0 : (j 0).val < 256 := Nat.lt_of_lt_of_le (j 0).isLt ((cfg0.win 5).xsize_le (grid0.coords t) 0)
  have hj1 : (j 1).val < 1 := Nat.lt_of_lt_of_le (j 1).isLt ((cfg0.win 5).xsize_le (grid0.coords t) 1)
  have hx : (win0 5).xinj (grid0.coords t) j = ix2 (⟨(j 0).val, hj0⟩ : Fin 256) (0 : Fin 1) := by
    funext a; apply Fin.ext
    match a with
    | ⟨0, _⟩ => rfl
    | ⟨1, _⟩ => show (j 1).val = 0; omega
  have hcut : ∀ (X : (win0 5).block.Idx → EReal), (win0 5).cut (grid0.coords t) X j = X ((win0 5).xinj (grid0.coords t) j) := fun _ => rfl
  rw [View.read_apply, hcut, hx]
  refine (valid_row (pt t) (labA m c) (grid0.coords t) hc (iblk m c 2 t) (iblk m c 3 t) (iblk2_apply m c t) (iblk3_apply m c t) ⟨(j 0).val, hj0⟩).trans ?_
  unfold G5
  rw [rowOf_emb5 t j hj0]
  exact (cast_eq _ _).symm

/-- An index of a result column is in point `t`'s block iff its row is among the block's 256 rows. -/
theorem mem_blk4 (t : Fin cfg0.N) (i : S4096x1.Idx) :
    i ∈ ((cfg0.win 4).blk t).view.set ↔ ∀ a : Fin 2, win0_4.index t a * S256x1.size a ≤ (i a).val ∧ (i a).val < win0_4.index t a * S256x1.size a + S256x1.size a := by
  show i ∈ ((View.whole main_v2_0).slice (win0_4.rect t)).set ↔ _
  rw [View.set_slice_whole, Rect.mem_set_unit]
  exact Iff.rfl
theorem mem_blk5 (t : Fin cfg0.N) (i : S4096x1.Idx) :
    i ∈ ((cfg0.win 5).blk t).view.set ↔ ∀ a : Fin 2, win0_5.index t a * S256x1.size a ≤ (i a).val ∧ (i a).val < win0_5.index t a * S256x1.size a + S256x1.size a := by
  show i ∈ ((View.whole main_v2_1).slice (win0_5.rect t)).set ↔ _
  rw [View.set_slice_whole, Rect.mem_set_unit]
  exact Iff.rfl

/-- The point that covers row `g` is `g / 256`. -/
def ptOf (i : S4096x1.Idx) : Fin cfg0.N := ⟨(i 0).val / 256, by have h := idx2_lt0 i; rw [show cfg0.N = 16 from N_0]; omega⟩

/-- The sixteen blocks cover each result column. -/
theorem cover4 (i : S4096x1.Idx) : ∃ t : Fin cfg0.N, (cfg0.win 4).flush t = true ∧ i ∈ ((cfg0.win 4).blk t).view.set := by
  have hi0 : (i 0).val < 4096 := idx2_lt0 i
  have hi1 : (i 1).val < 1 := idx2_lt1 i
  obtain ⟨-, -, -, -, -, -, -, -, e0, e1, -⟩ := idx_facts (ptOf i)
  have ht : (ptOf i).val = (i 0).val / 256 := rfl
  refine ⟨ptOf i, flush0_4 _, ?_⟩
  rw [mem_blk4]
  intro a
  match a with
  | ⟨0, _⟩ => show win0_4.index (ptOf i) (0 : Fin 2) * 256 ≤ (i 0).val ∧ (i 0).val < win0_4.index (ptOf i) (0 : Fin 2) * 256 + 256; omega
  | ⟨1, _⟩ => show win0_4.index (ptOf i) (1 : Fin 2) * 1 ≤ (i 1).val ∧ (i 1).val < win0_4.index (ptOf i) (1 : Fin 2) * 1 + 1; omega
theorem cover5 (i : S4096x1.Idx) : ∃ t : Fin cfg0.N, (cfg0.win 5).flush t = true ∧ i ∈ ((cfg0.win 5).blk t).view.set := by
  have hi0 : (i 0).val < 4096 := idx2_lt0 i
  have hi1 : (i 1).val < 1 := idx2_lt1 i
  obtain ⟨-, -, -, -, -, -, -, -, -, -, e0, e1, -⟩ := idx_facts (ptOf i)
  have ht : (ptOf i).val = (i 0).val / 256 := rfl
  refine ⟨ptOf i, flush0_5 _, ?_⟩
  rw [mem_blk5]
  intro a
  match a with
  | ⟨0, _⟩ => show win0_5.index (ptOf i) (0 : Fin 2) * 256 ≤ (i 0).val ∧ (i 0).val < win0_5.index (ptOf i) (0 : Fin 2) * 256 + 256; omega
  | ⟨1, _⟩ => show win0_5.index (ptOf i) (1 : Fin 2) * 1 ≤ (i 1).val ∧ (i 1).val < win0_5.index (ptOf i) (1 : Fin 2) * 1 + 1; omega

/-- THE COLUMNS after the region: every row's contribution, every row's count. -/
theorem final4 (c : Dev nD) : finalA m c 4 = G4 m c :=
  (dats m 0 c).arrAt_eq_of_cover 4 (G4 m c) (fun t _ => flushed4_eq m c t) cover4
theorem final5 (c : Dev nD) : finalA m c 5 = G5 m c :=
  (dats m 0 c).arrAt_eq_of_cover 5 (G5 m c) (fun t _ => flushed5_eq m c t) cover5

/-! ## The result -/

/-- The operations after the region, run from ANY contents `W` of the buffers, leave in the result buffer the sums,
    the quotient and the selection of the two result columns as `W` holds them. -/
theorem tail_after (W : Valuation τ sig (Elt Ideal)) :
    (StableHlo.after hostOps1_1 (StableHlo.after hostOps1 W) (Proc.devRef .tc main_v10) : S_.Idx → EReal)
      = select (cmpf (F := Ideal) .ogt (Host.reduceAdd (F := Ideal) (shapeCast S4096 (W (Proc.devRef .tc main_v2_1)) shapeCasts_S4096x1_S4096) (constant (F := Ideal) S_ .f32 0x00000000#32) reducesTo_S4096_S_d0 h_S_) (constant (F := Ideal) S_ .f32 0x00000000#32))
          (Host.divf (F := Ideal) (Host.reduceAdd (F := Ideal) (shapeCast S4096 (W (Proc.devRef .tc main_v2_0)) shapeCasts_S4096x1_S4096) (constant (F := Ideal) S_ .f32 0x00000000#32) reducesTo_S4096_S_d0 h_S_)
            (maximumf (Host.reduceAdd (F := Ideal) (shapeCast S4096 (W (Proc.devRef .tc main_v2_1)) shapeCasts_S4096x1_S4096) (constant (F := Ideal) S_ .f32 0x00000000#32) reducesTo_S4096_S_d0 h_S_) (constant (F := Ideal) S_ .f32 0x3F800000#32)))
          (id (constant (F := Ideal) S_ .f32 0x00000000#32)) := by
  dsimp only [hostOps1, hostOps1_1]; after_results; rfl

/-- THE RESULT BUFFER at the end: the specification's loss of the two argument arrays. The operations after the
    region read the two result columns, and are the specification's last steps. -/
theorem result_eq (c : Dev nD) : Wend m c (Proc.devRef .tc main_v10) = fun _ => Cert.Spec.result (xA m c) (labA m c) := by
  refine (tail_after (W1 m c)).trans ?_
  rw [W1_v2_0 m c, W1_v2_1 m c]
  funext i
  rw [tail_eq, final4, final5]
  rfl

/-- The run, read: the result buffer at the specification's loss, both arguments unchanged. -/
theorem kernel_run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v10) = (fun _ => Cert.Spec.result (xA m c) (labA m c))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨((h c).1).trans (result_eq m c), (h c).2.1, (h c).2.2⟩) (run_main m ρ)

end Cert.KernelIdeal.Hand

end
-- ==== Proof.RefTail.lean ====
/-
  The reference's last scalar steps: the sums of the per-row contributions and of the per-row counts, the quotient by the
  count (at least one), and `0` when the count is not positive, are the specification's `tail` of the two per-row stages.
-/
import proofs.«177116_j84293028151332_1_alg».proof.Proof.RefRead
import proofs.«177116_j84293028151332_1_alg».proof.Proof.Spec

noncomputable section

namespace Cert.ReferenceIdeal.Bridge

open Cert.ReferenceIdeal Cert.ReferenceIdeal.ReadP Idealize.ShloMosaic Idealize.ShloMosaic.ValueIdx

/-- A rank-1 index set is its coordinate's range. -/
def idxEquiv1 {n : Nat} : (⟨1, ![n]⟩ : Shape).Idx ≃ Fin n where
  toFun i := i 0
  invFun a := ix1 a
  left_inv i := (eq_ix1 i).symm
  right_inv _ := rfl

/-- A sum over the rows' index set is the sum over the rows. -/
theorem sum_rows (f : S4096.Idx → EReal) : ∑ j : S4096.Idx, f j = ∑ g : Fin 4096, f (ix1 g) :=
  (Equiv.sum_comp (idxEquiv1 (n := 4096)).symm f).symm

/-- A select on a decided bit is the `if`. -/
theorem select_ofBool {α : Type} (b : Bool) (x y : α) : Scalar.select (BitVec.ofBool b) x y = if b then x else y := by
  cases b
  · exact select_zero x y
  · exact select_one x y

/-- THE LAST STEPS are the specification's `tail` of the contributions' stage and the counts' stage. -/
theorem ref_tail (X : (⟨S4096x512, .f32⟩ : BufTy).Contents (Elt Ideal)) (L : (⟨S4096, .i32⟩ : BufTy).Contents (Elt Ideal))
    (i : S_.Idx) :
    val_main_v37 (F := Ideal) X L i
      = Cert.Spec.tail (fun g => val_main_v32 (F := Ideal) X L (ix1 g)) (fun g => val_main_v30 (F := Ideal) L (ix1 g)) := by
  rw [val_main_v37_apply, val_main_v36_apply, val_main_v35_apply, val_main_v34_apply, val_main_v33_apply,
    val_main_v31_apply, val_main_call4_v0_apply, val_main_cst_12_apply, val_main_cst_11_apply, val_main_cst_10_apply,
    val_main_cst_9_apply, val_main_cst_7_apply]
  generalize val_main_v32 (F := Ideal) X L = l
  generalize val_main_v30 (F := Ideal) L = v
  rw [sum_rows l, sum_rows v]
  show Scalar.select (BitVec.ofBool (decide (Ideal.ofBits .f32 0x00000000#32
      < Ideal.ofBits .f32 0x00000000#32 + ∑ g : Fin 4096, v (ix1 g))))
    (Ideal.div (Ideal.ofBits .f32 0x00000000#32 + ∑ g : Fin 4096, l (ix1 g))
      (max (Ideal.ofBits .f32 0x00000000#32 + ∑ g : Fin 4096, v (ix1 g)) (Ideal.ofBits .f32 0x3F800000#32)))
    (Ideal.ofBits .f32 0x00000000#32) = _
  rw [select_ofBool, Ideal.ofBits_zero_f32, zero_add, zero_add]
  unfold Cert.Spec.tail Cert.Spec.zero Cert.Spec.one
  rw [Ideal.ofBits_zero_f32]
  simp only [decide_eq_true_eq]

end Cert.ReferenceIdeal.Bridge

end
-- ==== Proof.RefValue.lean ====
/-
  The reference program read as the contrastive loss of `Proof/Spec.lean`, over the extended reals.

  The reference's result is a scalar; every stage of it is read at an index built from coordinates (`ix2 g j` for an
  entry of a 4096 × 4096 stage, `ix1 g` for an entry of a row stage) and identified with the specification's function
  of the same name: the scaled similarity, the row maximum (a fold of `max` from `-∞` over the row), the exponential of
  the shifted entry with the diagonal replaced, the mask of positives, the two row sums, the row's "has a positive"
  bit (a fold of `or` from `0` over the row), and the row's contribution and count. The last scalar steps, as a function of
  the rows' contributions and counts, are `Proof/RefTail.lean`'s `ref_tail`; with the two row lemmas they give the result.
-/
import proofs.«177116_j84293028151332_1_alg».proof.Proof.RefRead
import proofs.«177116_j84293028151332_1_alg».proof.Proof.Spec
import proofs.«177116_j84293028151332_1_alg».proof.Proof.RefTail
import Idealize.ShloMosaic.Lib.ValueIdx
import Idealize.ShloMosaic.Lib.Pipeline.Value
import Idealize.ShloMosaic.PureOps.Ideal.Laws
import Idealize.ShloMosaic.PureOps.Reduce
import Idealize.ShloMosaic.Lib.StableHlo.Run

noncomputable section

namespace Cert.ReferenceIdeal.Bridge

open Cert.ReferenceIdeal Cert.ReferenceIdeal.Gen Cert.ReferenceIdeal.ReadP Idealize.ShloMosaic Idealize.ShloMosaic.TcCoe
  Idealize.SL.Sem Idealize.ShloMosaic.StableHlo Idealize.ShloMosaic.ValueIdx

/-- The embeddings as a function of the row and the feature. -/
def xOf (X : (⟨S4096x512, .f32⟩ : BufTy).Contents (Elt Ideal)) : Fin 4096 → Fin 512 → EReal := fun g k => X (ix2 g k)
/-- The labels as a function of the row. -/
def labOf (L : (⟨S4096, .i32⟩ : BufTy).Contents (Elt Ideal)) : Fin 4096 → BitVec 32 := fun g => L (ix1 g)

variable (X : (⟨S4096x512, .f32⟩ : BufTy).Contents (Elt Ideal)) (L : (⟨S4096, .i32⟩ : BufTy).Contents (Elt Ideal))

/-! ## The constants -/

/-- The divisor's pattern is `9395241 / 2^27`. -/
theorem temp_bits : Ideal.ofBits .f32 0x3D8F5C29#32 = ((9395241 / 134217728 : ℝ) : EReal) := by
  simp [Ideal.ofBits, Ideal.ieee]
  first
    | (rw [← EReal.coe_mul]; congr 1; norm_num)
    | (norm_cast; norm_num)
    | (exact_mod_cast (by norm_num : (9395241 : ℝ) * (1 / 134217728) = 9395241 / 134217728))

/-- Dividing by the temperature's pattern is multiplying by its exact reciprocal. -/
theorem div_temp (a : EReal) : Ideal.div a (Ideal.ofBits .f32 0x3D8F5C29#32) = a * Spec.invTemp := by
  rw [temp_bits, Ideal.div_coe (by norm_num)]
  unfold Spec.invTemp
  congr 2
  norm_num

/-- The maximum's initial pattern is `-∞`. -/
theorem neg_inf_bits : Ideal.ofBits .f32 0xFF800000#32 = (⊥ : EReal) := by
  simp [Ideal.ofBits, Ideal.ieee]

/-! ## Index equations: the stages' composed index maps at coordinates -/

theorem lidx_v1 (g j : Fin 4096) (k : Fin 512) : lidx_main_v1 (ix2 g j) k = ix2 g k :=
  funext fun a => by match a with | ⟨0, _⟩ => rfl | ⟨1, _⟩ => rfl
theorem ridx_v1 (g j : Fin 4096) (k : Fin 512) : idx_main_v0 (ridx_main_v1 (ix2 g j) k) = ix2 j k :=
  funext fun a => by match a with | ⟨0, _⟩ => rfl | ⟨1, _⟩ => rfl

/-! ## The scaled similarity -/

theorem v3_at (g j : Fin 4096) : val_main_v3 (F := Ideal) X (ix2 g j) = Spec.sim (xOf X) g j := by
  rw [val_main_v3_apply, val_main_v1_apply, val_main_v2_apply, val_main_cst_apply]
  simp only [val_main_v0_apply, lidx_v1, ridx_v1]
  exact div_temp _

/-! ## The row maximum -/

theorem reducesRow : S4096x4096.Reduces [1] S4096 := by decide

/-- The index a reduction over the second axis inserts coordinate `k` into, at row `g`. -/
theorem lift_row (g k : Fin 4096) : reducesRow.lift (ix1 g) k = ix2 g k :=
  funext fun a => Fin.ext (by match a with | ⟨0, _⟩ => rfl | ⟨1, _⟩ => rfl)

theorem v16_at (g : Fin 4096) : val_main_v16 (F := Ideal) X (ix1 g) = Spec.rowMax (xOf X) g := by
  unfold val_main_v16
  have hy : ∀ k : Fin 4096, val_main_v3 (F := Ideal) X (ix2 g k) = Spec.sim (xOf X) g k := v3_at X g
  generalize val_main_v3 (F := Ideal) X = y at hy ⊢
  rw [Host.reduce_eq_fold_single (FloatOps.maximumf (F := Ideal) (φ := .f32)) y _ reducesTo_S4096x4096_S4096_d1 reducesRow h_S_ (ix1 g),
    val_main_cst_0_apply]
  show (Finset.univ : Finset (Fin 4096)).fold max (Ideal.ofBits .f32 0xFF800000#32) (fun k => y (reducesRow.lift (ix1 g) k)) = _
  rw [neg_inf_bits]
  unfold Spec.rowMax
  exact Finset.fold_congr fun k _ => (congrArg y (lift_row g k)).trans (hy k)

/-! ## The diagonal, and the exponential of the shifted entry -/

theorem ofNat_inj_row (g j : Fin 4096) (e : BitVec.ofNat 32 g.val = BitVec.ofNat 32 j.val) : g = j := by
  have h := congrArg BitVec.toNat e
  simp only [BitVec.toNat_ofNat] at h
  have h32 : (2 : ℕ) ^ 32 = 4294967296 := by norm_num
  rw [h32] at h
  have hg := g.isLt
  have hj := j.isLt
  exact Fin.ext (by omega)

theorem v8_at (g j : Fin 4096) : val_main_v8 (F := Ideal) (ix2 g j) = if g = j then 1#1 else 0#1 := by
  rw [val_main_v8_apply, val_main_v7_apply, val_main_v4_apply, val_main_v5_apply, val_main_v6_apply, val_main_c_apply]
  show BitVec.ofBool (BitVec.ofNat 32 g.val + 0#32 == BitVec.ofNat 32 j.val) = _
  rw [BitVec.add_zero]
  by_cases h : g = j
  · subst h
    rw [if_pos rfl, beq_self_eq_true]
    rfl
  · have hne : ¬ BitVec.ofNat 32 g.val = BitVec.ofNat 32 j.val := fun e => h (ofNat_inj_row g j e)
    rw [if_neg h, beq_eq_false_iff_ne.mpr hne]
    rfl

theorem idx_v17_v18 (g j : Fin 4096) : idx_main_v17 (idx_main_v18 (ix2 g j)) = ix1 g :=
  funext fun a => by match a with | ⟨0, _⟩ => rfl

theorem v20_at (g j : Fin 4096) :
    val_main_v20 (F := Ideal) X (ix2 g j) = if g = j then Spec.fill else Spec.sim (xOf X) g j - Spec.rowMax (xOf X) g := by
  rw [val_main_v20_apply, v8_at, val_main_call0_v1_apply, val_main_call0_v0_apply, val_main_cst_1_apply, val_main_v19_apply,
    v3_at, val_main_v18_apply, val_main_v17_apply, idx_v17_v18, v16_at]
  by_cases h : g = j
  · rw [if_pos h, if_pos h, select_one]; rfl
  · rw [if_neg h, if_neg h, select_zero]; rfl

theorem v21_at (g j : Fin 4096) : val_main_v21 (F := Ideal) X (ix2 g j) = Spec.ex (xOf X) g j := by
  rw [val_main_v21_apply, v20_at]; rfl

/-! ## The mask of positives -/

theorem idx_v9_v11 (g j : Fin 4096) : idx_main_v9 (idx_main_v11 (ix2 g j)) = ix1 j :=
  funext fun a => by match a with | ⟨0, _⟩ => rfl
theorem idx_v10_v12 (g j : Fin 4096) : idx_main_v10 (idx_main_v12 (ix2 g j)) = ix1 g :=
  funext fun a => by match a with | ⟨0, _⟩ => rfl

theorem v15_at (g j : Fin 4096) :
    val_main_v15 (F := Ideal) L (ix2 g j) = if Spec.pos (labOf L) g j then 1#1 else 0#1 := by
  rw [val_main_v15_apply, val_main_v13_apply, val_main_v14_apply, v8_at, val_main_v11_apply, val_main_v9_apply, idx_v9_v11,
    val_main_v12_apply, val_main_v10_apply, idx_v10_v12]
  show IntOp.andi (BitVec.ofBool (L (ix1 j) == L (ix1 g))) (~~~(if g = j then 1#1 else 0#1)) = _
  unfold Spec.pos labOf IntOp.andi
  by_cases h : g = j
  · subst h
    simp
  · by_cases e : L (ix1 g) = L (ix1 j)
    · simp [h, e]
    · have e' : ¬ L (ix1 j) = L (ix1 g) := fun q => e q.symm
      have hb : ((L (ix1 j) : BitVec 32) == (L (ix1 g) : BitVec 32)) = false := beq_eq_false_iff_ne.mpr e'
      simp [h, e]
      show BitVec.ofBool ((L (ix1 j) : BitVec 32) == (L (ix1 g) : BitVec 32)) &&& 1#1 = 0#1
      rw [hb]
      rfl

/-! ## The two row sums -/

theorem idx_v23 (g k : Fin 4096) : idx_main_v23 (ix1 g) k = ix2 g k :=
  funext fun a => by match a with | ⟨0, _⟩ => rfl | ⟨1, _⟩ => rfl
theorem idx_v24 (g k : Fin 4096) : idx_main_v24 (ix1 g) k = ix2 g k :=
  funext fun a => by match a with | ⟨0, _⟩ => rfl | ⟨1, _⟩ => rfl

theorem v22_at (g j : Fin 4096) :
    val_main_v22 (F := Ideal) X L (ix2 g j) = if Spec.pos (labOf L) g j then Spec.ex (xOf X) g j else Spec.zero := by
  rw [val_main_v22_apply, v15_at, v21_at, val_main_call1_v1_apply, val_main_call1_v0_apply, val_main_cst_2_apply]
  by_cases h : Spec.pos (labOf L) g j = true
  · rw [if_pos h, if_pos h, select_one]
  · rw [if_neg h, if_neg h, select_zero]; rfl

theorem v23_at (g : Fin 4096) : val_main_v23 (F := Ideal) X L (ix1 g) = Spec.posSum (xOf X) (labOf L) g := by
  rw [val_main_v23_apply, val_main_cst_3_apply]
  show Ideal.ofBits .f32 0x00000000#32 + _ = _
  rw [Ideal.ofBits_zero_f32, zero_add]
  unfold Spec.posSum
  exact Finset.sum_congr rfl fun k _ => by rw [idx_v23, v22_at]

theorem v24_at (g : Fin 4096) : val_main_v24 (F := Ideal) X (ix1 g) = Spec.allSum (xOf X) g := by
  rw [val_main_v24_apply, val_main_cst_4_apply]
  show Ideal.ofBits .f32 0x00000000#32 + _ = _
  rw [Ideal.ofBits_zero_f32, zero_add]
  unfold Spec.allSum
  exact Finset.sum_congr rfl fun k _ => by rw [idx_v24, v21_at]

/-! ## The row has a positive: a fold of `or` over one-bit words -/

/-- From `0`, the `or` of a family of decided bits is `1` exactly when one of them is. -/
theorem fold_ori_bits {ι : Type} [DecidableEq ι] (s : Finset ι) (p : ι → Bool) :
    s.fold IntOp.ori 0#1 (fun k => if p k then 1#1 else 0#1) = if (∃ k ∈ s, p k = true) then 1#1 else 0#1 := by
  refine Finset.induction_on s ?_ ?_
  · simp
  · intro a s ha ih
    rw [Finset.fold_insert ha, ih]
    by_cases hp : p a = true
    · have hex : ∃ k ∈ insert a s, p k = true := ⟨a, Finset.mem_insert_self a s, hp⟩
      rw [if_pos hp, if_pos hex]
      unfold IntOp.ori
      split <;> decide
    · rw [if_neg hp]
      by_cases hs : ∃ k ∈ s, p k = true
      · obtain ⟨k, hk, hpk⟩ := hs
        rw [if_pos ⟨k, hk, hpk⟩, if_pos ⟨k, Finset.mem_insert_of_mem hk, hpk⟩]
        decide
      · have hn : ¬ ∃ k ∈ insert a s, p k = true := by
          rintro ⟨k, hk, hpk⟩
          rcases Finset.mem_insert.mp hk with rfl | hk'
          · exact hp hpk
          · exact hs ⟨k, hk', hpk⟩
        rw [if_neg hs, if_neg hn]
        decide

theorem v25_at (g : Fin 4096) : val_main_v25 (F := Ideal) L (ix1 g) = if Spec.hasPos (labOf L) g then 1#1 else 0#1 := by
  unfold val_main_v25
  have hy : ∀ k : Fin 4096, val_main_v15 (F := Ideal) L (ix2 g k) = if Spec.pos (labOf L) g k then 1#1 else 0#1 := v15_at L g
  generalize val_main_v15 (F := Ideal) L = y at hy ⊢
  rw [Host.reduce_eq_fold_single IntOp.ori y _ reducesTo_S4096x4096_S4096_d1 reducesRow h_S_ (ix1 g), val_main_c_5_apply]
  show (Finset.univ : Finset (Fin 4096)).fold IntOp.ori 0#1 (fun k => y (reducesRow.lift (ix1 g) k)) = _
  refine (Finset.fold_congr (g := fun k => if Spec.pos (labOf L) g k then 1#1 else 0#1)
    (fun k _ => (congrArg y (lift_row g k)).trans (hy k))).trans ?_
  refine (fold_ori_bits Finset.univ (fun k => Spec.pos (labOf L) g k)).trans ?_
  unfold Spec.hasPos
  simp

/-! ## A row's contribution and count -/

theorem v32_at (g : Fin 4096) : val_main_v32 (F := Ideal) X L (ix1 g) = Spec.loss (xOf X) (labOf L) g := by
  rw [val_main_v32_apply, v25_at, val_main_v29_apply, val_main_v28_apply, val_main_v27_apply, val_main_v26_apply, v25_at, v23_at,
    v24_at, val_main_call2_v1_apply, val_main_call2_v0_apply, val_main_cst_6_apply, val_main_call3_v1_apply,
    val_main_call3_v0_apply, val_main_cst_8_apply]
  unfold Spec.loss
  by_cases h : Spec.hasPos (labOf L) g = true
  · simp only [if_pos h, select_one]; rfl
  · simp only [if_neg h, select_zero]; rfl

theorem v30_at (g : Fin 4096) : val_main_v30 (F := Ideal) L (ix1 g) = Spec.valid (labOf L) g := by
  rw [val_main_v30_apply, v25_at]
  unfold Spec.valid
  by_cases h : Spec.hasPos (labOf L) g = true
  · rw [if_pos h, if_pos h]
    show (((1#1 : BitVec 1).toNat : ℝ) : EReal) = 1
    simp
  · rw [if_neg h, if_neg h]
    show (((0#1 : BitVec 1).toNat : ℝ) : EReal) = 0
    simp

/-! ## The result -/

/-- The reference's result, at its one index, is the specification's loss of the two arguments: the last scalar steps
    (`ref_tail`) of the rows' contributions and counts, which are the specification's. -/
theorem ref_eq_spec (i : S_.Idx) : val_main_v37 (F := Ideal) X L i = Spec.result (xOf X) (labOf L) := by
  have hl : (fun g : Fin 4096 => val_main_v32 (F := Ideal) X L (ix1 g)) = Spec.loss (xOf X) (labOf L) :=
    funext fun g => v32_at X L g
  have hv : (fun g : Fin 4096 => val_main_v30 (F := Ideal) L (ix1 g)) = Spec.valid (labOf L) :=
    funext fun g => v30_at L g
  rw [ref_tail, hl, hv]
  rfl

/-! ## The reference's run, stated with the specification -/

/-- Every weakly fair execution of the reference ends with its result buffer at the specification's loss of the two
    arguments' launch contents, the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v37)
          = (fun _ => Spec.result (xOf (m ((c.tc : Thread nD τ).loc main_arg0))) (labOf (m ((c.tc : Thread nD τ).loc main_arg1))))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by
      rw [val_main_v37_eq]
      exact funext fun i => ref_eq_spec _ _ i), (h c).2⟩)
    (Cert.ReferenceIdeal.ValueP.run (F := Ideal) m ρ)

end Cert.ReferenceIdeal.Bridge

end
-- ==== Proof.lean ====
/-
  The supervised contrastive loss computed by a row-blocked kernel equals the loss computed on the whole arrays.

  For embeddings `x` (4096 rows of 512 numbers) and integer labels, the loss is the mean, over the rows that have
  another row with the same label, of `−log (P g / A g)`, where with `s g j = (x g · x j) / T` and `M g = max_j s g j`,
  `A g = ∑_j exp (if g = j then fill else s g j − M g)` and `P g` is the same sum over the positives of `g` only; the
  loss is `0` when no row has a positive (Proof/Spec.lean states this function once).

  The kernel computes it in sixteen blocks of 256 rows. Each block multiplies its rows with the whole array (read a second
  time through a window of its own), scales by the reciprocal of the temperature — a constant the kernel folded, NAMED
  here as the exact reciprocal `134217728/9395241` of the binary value of the divisor the reference divides by, so that
  on the extended reals the product with it IS the reference's quotient —, takes the row maximum, the two exponential
  sums and the has-a-positive bit of each of its rows, and writes one contribution and one count per row; the host then
  sums both columns and divides. The reference does the same on the 4096 × 4096 matrix at once. Row by row both are the
  specification's function (Proof/KIPayload*.lean for a row of a block, Proof/RefValue.lean for a row of the whole
  matrix); the blocks tile the two result columns (Proof/KIValue.lean); and the last scalar steps are the same operations
  on both sides (Proof/KITail.lean, Proof/RefTail.lean). No step needs the inputs to be finite: every law used —
  commuting and regrouping sums, the quotient by a nonzero real as a product — holds on all extended reals.

  Each program runs to its end from any memory, faulting nowhere and leaving its arguments as they were: for the kernel's
  two programs by the body's run at a grid point (Proof/KBody.lean, Proof/KIBody.lean) under the launch of @main as host
  operations, the kernel region and host operations again, the embeddings' array held in two halves by the two windows
  that read it (Proof/KRun.lean, Proof/KIRun.lean); for the reference by the run of its host operations (Proof/RefRun.lean).
-/
import proofs.«177116_j84293028151332_1_alg».proof.Defs
import proofs.«177116_j84293028151332_1_alg».proof.Proof.Gen.Kernel
import proofs.«177116_j84293028151332_1_alg».proof.Proof.Gen.KernelIdeal
import proofs.«177116_j84293028151332_1_alg».proof.Proof.Gen.ReferenceIdeal
import proofs.«177116_j84293028151332_1_alg».proof.Proof.Gen.Pre_finite_inputs
import proofs.«177116_j84293028151332_1_alg».proof.Proof.KRun
import proofs.«177116_j84293028151332_1_alg».proof.Proof.KIValue
import proofs.«177116_j84293028151332_1_alg».proof.Proof.RefValue

noncomputable section

namespace Cert.Proof

open Idealize.ShloMosaic Idealize.SL.Sem

/-- The word-level kernel program runs and keeps its arguments. -/
theorem frame_k : Cert.frame_Kernel := fun m ρ _ =>
  (θ_run Cert.Kernel.defs _ _).mono (fun _ h c => ⟨(h c).2.1, (h c).2.2⟩) (Cert.Kernel.Hand.run_main (F := Bits) m ρ)

/-- The idealized kernel program runs and keeps its arguments. -/
theorem frame_ki : Cert.frame_KernelIdeal := fun m ρ _ =>
  (θ_run Cert.KernelIdeal.defs _ _).mono (fun _ h c => ⟨(h c).2.1, (h c).2.2⟩) (Cert.KernelIdeal.Hand.run_main (F := Ideal) m ρ)

/-- The idealized reference runs and keeps its arguments. -/
theorem frame_ri : Cert.frame_ReferenceIdeal := fun m ρ _ =>
  (θ_run Cert.ReferenceIdeal.defs _ _).mono (fun _ h c => (h c).2) (Cert.ReferenceIdeal.Bridge.run m ρ)

/-- The one rewrite of the idealization: the folded reciprocal of the temperature is named its exact value, the
    reciprocal of the binary value of the reference's divisor. -/
theorem preserves : Cert.preserves_Kernel_KernelIdeal :=
  IdealRules.named_const.statement Cert.KernelIdeal.κ "inv_temperature" .f32 0x41649249#32 ((134217728 / 9395241 : ℝ) : EReal) rfl

/-- On the extended reals the kernel's result buffer and the reference's both end at the specification's loss of the
    argument arrays, which agree. -/
theorem algebraic : Cert.algebraic_KernelIdeal_ReferenceIdeal := by
  intro m ρ m' ρ' _ hagree
  refine ⟨fun c _ => Cert.Spec.result (Cert.KernelIdeal.Hand.xA m c) (Cert.KernelIdeal.Hand.labA m c),
    Cert.KernelIdeal.Hand.kernel_run m ρ, ?_⟩
  refine (θ_run Cert.ReferenceIdeal.defs _ _).mono (fun _ h c => ⟨(h c).1.trans ?_, (h c).2⟩) (Cert.ReferenceIdeal.Bridge.run m' ρ')
  rw [(hagree c).1, (hagree c).2]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
